-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x800000 : Shape := ⟨2, ![2, 800000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S256x128 : S_.BroadcastsInDim S256x128 (![] : Fin 0 → Fin S256x128.rank)
  reducesTo_S256x128_S_d0_1 : S256x128.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part3 {F : FTy → Type} [FloatOps F] (main_arg2 : IVec S2x800000 32) (main_arg12 : FVec F S128x128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_c_24 : IVec S_ 32 := constantI S_ 32 0#32
  let main_v64 : IVec S2x800000 32 := broadcastInDim S2x800000 ![] bcast_S_S2x800000 main_c_24
  let main_v65 : IVec S2x800000 1 := cmpi .sge main_arg2 main_v64
  let main_c_25 : IVec S_ 1 := constantI S_ 1 1#1
  let main_v66 : IVec S_ 1 := (fun x v => Host.reduce IntOp.andi x v reducesTo_S2x800000_S_d0_1 h_S_) main_v65 main_c_25
  let main_v67 : IVec S_ 1 := andi main_v63 main_v66
  main_v67

def fn_part2 {F : FTy → Type} [FloatOps F] (main_arg2 : IVec S2x800000 32) (main_arg8 : FVec F S128 .f32) (main_arg9 : FVec F S128x1 .f32) (main_arg10 : FVec F S256x128 .f32) (main_arg11 : FVec F S128 .f32) (main_arg12 : FVec F S128x128 .f32) (main_arg13 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg9
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg2 main_arg12 main_arg13 main_v48 main_v49 main_v50

def fn_part1 {F : FTy → Type} [FloatOps F] (main_arg2 : IVec S2x800000 32) (main_arg5 : FVec F S128x128 .f32) (main_arg6 : FVec F S128 .f32) (main_arg7 : FVec F S128x128 .f32) (main_arg8 : FVec F S128 .f32) (main_arg9 : FVec F S128x1 .f32) (main_arg10 : FVec F S256x128 .f32) (main_arg11 : FVec F S128 .f32) (main_arg12 : FVec F S128x128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg8 main_arg9 main_arg10 main_arg11 main_arg12 main_arg13 main_v33

def fn {F : FTy → Type} [FloatOps F] (main_arg0 : FVec F S50000x128 .f32) (main_arg1 : FVec F S50000x3 .f32) (main_arg2 : IVec S2x800000 32) (main_arg3 : FVec F S257x128 .f32) (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S256x128 .f32) (main_arg11 : FVec F S128 .f32) (main_arg12 : FVec F S128x128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S257x128 .f32 := Host.absf main_arg3
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_arg11 main_arg12 main_arg13 main_v13 main_v16
-- ==== Kernel.lean ====
abbrev S50000x128 : Shape := ⟨2, ![50000, 128]⟩
abbrev S50000x3 : Shape := ⟨2, ![50000, 3]⟩
abbrev S2x800000 : Shape := ⟨2, ![2, 800000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x3 : Shape := ⟨2, ![800000, 3]⟩
abbrev S1x128 : Shape := ⟨2, ![1, 128]⟩
abbrev S2000x128 : Shape := ⟨2, ![2000, 128]⟩
abbrev S2000x3 : Shape := ⟨2, ![2000, 3]⟩
abbrev S2000 : Shape := ⟨1, ![2000]⟩
abbrev S2000x1 : Shape := ⟨2, ![2000, 1]⟩

abbrev nBuf : Space → Nat
  | .hbm => 71
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x800000, .i32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S256x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x3, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x3, .f32⟩
  | .hbm, ⟨54, _⟩ => ⟨S128x128, .f32⟩
  | .hbm, ⟨55, _⟩ => ⟨S128x128, .f32⟩
  | .hbm, ⟨56, _⟩ => ⟨S1x128, .f32⟩
  | .hbm, ⟨57, _⟩ => ⟨S800000x128, .f32⟩
  | .hbm, ⟨58, _⟩ => ⟨S800000x3, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S_, .f32⟩
  | .hbm, ⟨64, _⟩ => ⟨S50000x3, .f32⟩
  | .hbm, ⟨65, _⟩ => ⟨S800000x1, .i32⟩
  | .hbm, ⟨66, _⟩ => ⟨S50000x3, .f32⟩
  | .hbm, ⟨67, _⟩ => ⟨S128x128, .f32⟩
  | .hbm, ⟨68, _⟩ => ⟨S128x128, .f32⟩
  | .hbm, ⟨69, _⟩ => ⟨S50000x128, .f32⟩
  | .hbm, ⟨70, _⟩ => ⟨S50000x3, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x3, .f32⟩
  | .local _ .vmem, ⟨5, _⟩ => ⟨S2000x3, .f32⟩
  | .local _ .vmem, ⟨6, _⟩ => ⟨S2000x3, .f32⟩
  | .local _ .vmem, ⟨7, _⟩ => ⟨S2000x3, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S128x1, .f32⟩
  | .local _ .vmem, ⟨17, _⟩ => ⟨S2000x128, .f32⟩
  | .local _ .vmem, ⟨18, _⟩ => ⟨S2000x128, .f32⟩
  | .local _ .vmem, ⟨19, _⟩ => ⟨S2000x3, .f32⟩
  | .local _ .vmem, ⟨20, _⟩ => ⟨S2000x3, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x3, .f32⟩
  | .local _ .vmem, ⟨26, _⟩ => ⟨S2000x3, .f32⟩
  | .local _ .vmem, ⟨27, _⟩ => ⟨S2000x3, .f32⟩
  | .local _ .vmem, ⟨28, _⟩ => ⟨S2000x3, .f32⟩
  | .local _ .vmem, ⟨29, _⟩ => ⟨S128x128, .f32⟩
  | .local _ .vmem, ⟨30, _⟩ => ⟨S128x128, .f32⟩
  | .local _ .vmem, ⟨31, _⟩ => ⟨S128, .f32⟩
  | .local _ .vmem, ⟨32, _⟩ => ⟨S128x128, .f32⟩
  | .local _ .vmem, ⟨33, _⟩ => ⟨S128, .f32⟩
  | .local _ .vmem, ⟨34, _⟩ => ⟨S2000x128, .f32⟩
  | .local _ .vmem, ⟨35, _⟩ => ⟨S2000x128, .f32⟩
  | .local _ .vmem, ⟨36, _⟩ => ⟨S2000x3, .f32⟩
  | .local _ .vmem, ⟨37, _⟩ => ⟨S2000x3, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35_0 : Ref sig .tc := ⟨.hbm, 57, rfl⟩
abbrev main_v35_1 : Ref sig .tc := ⟨.hbm, 58, rfl⟩
abbrev main_cst : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44_0 : Ref sig .tc := ⟨.hbm, 69, rfl⟩
abbrev main_v44_1 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg3_1 : Ref sig .tc := ⟨.vmem, 28, rfl⟩
abbrev cc1_stg4_0 : Ref sig .tc := ⟨.vmem, 29, rfl⟩
abbrev cc1_stg5_0 : Ref sig .tc := ⟨.vmem, 30, rfl⟩
abbrev cc1_stg6_0 : Ref sig .tc := ⟨.vmem, 31, rfl⟩
abbrev cc1_stg7_0 : Ref sig .tc := ⟨.vmem, 32, rfl⟩
abbrev cc1_stg8_0 : Ref sig .tc := ⟨.vmem, 33, rfl⟩
abbrev cc1_stg9_0 : Ref sig .tc := ⟨.vmem, 34, rfl⟩
abbrev cc1_stg9_1 : Ref sig .tc := ⟨.vmem, 35, rfl⟩
abbrev cc1_stg10_0 : Ref sig .tc := ⟨.vmem, 36, rfl⟩
abbrev cc1_stg10_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem3_1 : DmaSem sig := 28
abbrev cc1_sem4_0 : DmaSem sig := 29
abbrev cc1_sem5_0 : DmaSem sig := 30
abbrev cc1_sem6_0 : DmaSem sig := 31
abbrev cc1_sem7_0 : DmaSem sig := 32
abbrev cc1_sem8_0 : DmaSem sig := 33
abbrev cc1_sem9_0 : DmaSem sig := 34
abbrev cc1_sem9_1 : DmaSem sig := 35
abbrev cc1_sem10_0 : DmaSem sig := 36
abbrev cc1_sem10_1 : DmaSem sig := 37

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2000x3 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2000x3 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S257x128_S128x128_0_0 : S257x128.Slices ![0, 0] S128x128
  slices_S257x128_S128x128_128_0 : S257x128.Slices ![128, 0] S128x128
  slices_S257x128_S1x128_256_0 : S257x128.Slices ![256, 0] S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  reduces_S2000x3_S2000 : S2000x3.Reduces [1] S2000
  shapeCasts_S2000_S2000x1 : S2000.ShapeCasts S2000x1
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2000x1_S2000x128 : S2000x1.Broadcasts S2000x128
  broadcasts_S1x128_S2000x128 : S1x128.Broadcasts S2000x128
  inb_S128_S128_0 : ∀ a, (![0] : Fin 1 → Nat) a + S128.size a ≤ S128.size a
  h_S128 : 0 < S128.numel
  shapeCasts_S128_S1x128 : S128.ShapeCasts S1x128
  inb_S128x1_S128x1_0_0 : ∀ a, (![0, 0] : Fin 2 → Nat) a + S128x1.size a ≤ S128x1.size a
  h_S128x1 : 0 < S128x1.numel
  broadcasts_S2000x1_S2000x3 : S2000x1.Broadcasts S2000x3
  bcast_S_S50000x128 : S_.BroadcastsInDim S50000x128 (![] : Fin 0 → Fin S50000x128.rank)
  bcast_S_S50000x3 : S_.BroadcastsInDim S50000x3 (![] : Fin 0 → Fin S50000x3.rank)
  slices_S256x128_S128x128_0_0 : S256x128.Slices ![0, 0] S128x128
  slices_S256x128_S128x128_128_0 : S256x128.Slices ![128, 0] S128x128
  gather_S50000x128_S800000x1_S800000x128_1_0_n_n_0_1_1128_wf : GatherDims.WF S50000x128 S800000x1 S800000x128 [1] [0] [] [0] [] 1 ![1, 128]
  gather_S50000x3_S800000x1_S800000x3_1_0_n_n_0_1_13_wf : GatherDims.WF S50000x3 S800000x1 S800000x3 [1] [0] [] [0] [] 1 ![1, 3]
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  scatter_S50000x128_S800000x1_S800000x128_1_0_0_1_wf : ScatterDims.WF S50000x128 S800000x1 S800000x128 [1] [0] [0] 1
  scatter_S50000x3_S800000x1_S800000x3_1_0_0_1_wf : ScatterDims.WF S50000x3 S800000x1 S800000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S800000x128.size a
  hwx0_0 : ∀ i : grid0.Coords, EltTy.bits .f32 = 32 ∨ (Rect.block (s := S800000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S800000x128.size a
  hwx0_1 : ∀ i : grid0.Coords, EltTy.bits .f32 = 32 ∨ (Rect.block (s := S800000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x3.size a ≤ S800000x3.size a
  hwx0_2 : ∀ i : grid0.Coords, EltTy.bits .f32 = 32 ∨ (Rect.block (s := S800000x3) S2000x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x3.size a ≤ S800000x3.size a
  hwx0_3 : ∀ i : grid0.Coords, EltTy.bits .f32 = 32 ∨ (Rect.block (s := S800000x3) S2000x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x1.size a ≤ S128x1.size a
  hwx0_12 : ∀ i : grid0.Coords, EltTy.bits .f32 = 32 ∨ (Rect.block (s := S128x1) S128x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x128.size a ≤ S800000x128.size a
  hwx0_13 : ∀ i : grid0.Coords, EltTy.bits .f32 = 32 ∨ (Rect.block (s := S800000x128) S2000x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2000x3.size a ≤ S800000x3.size a
  hwx0_14 : ∀ i : grid0.Coords, EltTy.bits .f32 = 32 ∨ (Rect.block (s := S800000x3) S2000x3.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x3.size a ≤ S50000x3.size a
  hwx1_2 : ∀ i : grid1.Coords, EltTy.bits .f32 = 32 ∨ (Rect.block (s := S50000x3) S2000x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x3.size a ≤ S50000x3.size a
  hwx1_3 : ∀ i : grid1.Coords, EltTy.bits .f32 = 32 ∨ (Rect.block (s := S50000x3) S2000x3.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x3.size a ≤ S50000x3.size a
  hwx1_10 : ∀ i : grid1.Coords, EltTy.bits .f32 = 32 ∨ (Rect.block (s := S50000x3) S2000x3.size (cc1_transform_10 i) (hinb1_10 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

abbrev win0_0 : Pipeline.Window sig grid0 :=
  Pipeline.Window.ofSpec (Memref.whole main_v10) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S2000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S2000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg7) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg8) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg9) S128x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v35_0) S2000x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v35_1) S2000x3.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2000x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S2000x3.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v42) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg13) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v44_0) S2000x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v44_1) S2000x3.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x800000 : Shape := ⟨2, ![2, 800000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x128 : Shape := ⟨2, ![800000, 128]⟩
abbrev S800000x257 : Shape := ⟨2, ![800000, 257]⟩
abbrev S1x128 : Shape := ⟨2, ![1, 128]⟩
abbrev S50000x256 : Shape := ⟨2, ![50000, 256]⟩

abbrev nBuf : Space → Nat
  | .hbm => 135
  | .vmem => 0
  | .smem => 0
  | _ => 0

abbrev hbmTy0_0 (i : Nat) : BufTy := match i % 128 with
  | 0 => ⟨S50000x128, .f32⟩
  | 1 => ⟨S50000x3, .f32⟩
  | 2 => ⟨S2x800000, .i32⟩
  | 3 => ⟨S257x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x1, .f32⟩
  | 10 => ⟨S256x128, .f32⟩
  | 11 => ⟨S128, .f32⟩
  | 12 => ⟨S128x128, .f32⟩
  | 13 => ⟨S128, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x3, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x3, .f32⟩
  | 36 => ⟨S800000x3, .f32⟩
  | 37 => ⟨S800000x3, .f32⟩
  | 38 => ⟨S_, .f32⟩
  | 39 => ⟨S800000, .f32⟩
  | 40 => ⟨S800000x1, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S800000x257, .f32⟩
  | 60 => ⟨S800000x128, .f32⟩
  | 61 => ⟨S1x128, .f32⟩
  | 62 => ⟨S800000x128, .f32⟩
  | 63 => ⟨S800000x128, .f32⟩
  | 64 => ⟨S800000x128, .f32⟩
  | 65 => ⟨S800000x128, .f32⟩
  | 66 => ⟨S_, .f32⟩
  | 67 => ⟨S800000x128, .f32⟩
  | 68 => ⟨S800000x128, .f32⟩
  | 69 => ⟨S_, .f32⟩
  | 70 => ⟨S800000x128, .f32⟩
  | 71 => ⟨S800000x128, .f32⟩
  | 72 => ⟨S800000x128, .f32⟩
  | 73 => ⟨S800000x128, .f32⟩
  | 74 => ⟨S1x128, .f32⟩
  | 75 => ⟨S800000x128, .f32⟩
  | 76 => ⟨S800000x128, .f32⟩
  | 77 => ⟨S800000x128, .f32⟩
  | 78 => ⟨S1x128, .f32⟩
  | 79 => ⟨S800000x128, .f32⟩
  | 80 => ⟨S800000x128, .f32⟩
  | 81 => ⟨S800000x128, .f32⟩
  | 82 => ⟨S800000x128, .f32⟩
  | 83 => ⟨S_, .f32⟩
  | 84 => ⟨S800000x128, .f32⟩
  | 85 => ⟨S800000x128, .f32⟩
  | 86 => ⟨S_, .f32⟩
  | 87 => ⟨S800000x128, .f32⟩
  | 88 => ⟨S800000x128, .f32⟩
  | 89 => ⟨S800000x128, .f32⟩
  | 90 => ⟨S800000x1, .f32⟩
  | 91 => ⟨S800000x3, .f32⟩
  | 92 => ⟨S800000x3, .f32⟩
  | 93 => ⟨S_, .f32⟩
  | 94 => ⟨S50000x3, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S50000x3, .f32⟩
  | 104 => ⟨S50000x3, .f32⟩
  | 105 => ⟨S_, .f32⟩
  | 106 => ⟨S50000x128, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S50000x128, .f32⟩
  | 116 => ⟨S50000x256, .f32⟩
  | 117 => ⟨S50000x128, .f32⟩
  | 118 => ⟨S1x128, .f32⟩
  | 119 => ⟨S50000x128, .f32⟩
  | 120 => ⟨S50000x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S_, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S1x128, .f32⟩
  | 4 => ⟨S50000x128, .f32⟩
  | 5 => ⟨S50000x128, .f32⟩
  | 6 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_call1_v0 : Ref sig .tc := ⟨.hbm, 81, rfl⟩
abbrev main_call1_v1 : Ref sig .tc := ⟨.hbm, 82, rfl⟩
abbrev main_call1_cst : Ref sig .tc := ⟨.hbm, 83, rfl⟩
abbrev main_call1_v2 : Ref sig .tc := ⟨.hbm, 84, rfl⟩
abbrev main_call1_v3 : Ref sig .tc := ⟨.hbm, 85, rfl⟩
abbrev main_call1_cst_0 : Ref sig .tc := ⟨.hbm, 86, rfl⟩
abbrev main_call1_v4 : Ref sig .tc := ⟨.hbm, 87, rfl⟩
abbrev main_call1_v5 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_7 : Ref sig .tc := ⟨.hbm, 93, rfl⟩
abbrev main_v54 : Ref sig .tc := ⟨.hbm, 94, rfl⟩
abbrev main_c_8 : Ref sig .tc := ⟨.hbm, 95, rfl⟩
abbrev main_v55 : Ref sig .tc := ⟨.hbm, 96, rfl⟩
abbrev main_v56 : Ref sig .tc := ⟨.hbm, 97, rfl⟩
abbrev main_c_9 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_cst_10 : Ref sig .tc := ⟨.hbm, 105, rfl⟩
abbrev main_v63 : Ref sig .tc := ⟨.hbm, 106, rfl⟩
abbrev main_c_11 : Ref sig .tc := ⟨.hbm, 107, rfl⟩
abbrev main_v64 : Ref sig .tc := ⟨.hbm, 108, rfl⟩
abbrev main_v65 : Ref sig .tc := ⟨.hbm, 109, rfl⟩
abbrev main_c_12 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_call2_v0 : Ref sig .tc := ⟨.hbm, 121, rfl⟩
abbrev main_call2_v1 : Ref sig .tc := ⟨.hbm, 122, rfl⟩
abbrev main_call2_cst : Ref sig .tc := ⟨.hbm, 123, rfl⟩
abbrev main_call2_v2 : Ref sig .tc := ⟨.hbm, 124, rfl⟩
abbrev main_call2_v3 : Ref sig .tc := ⟨.hbm, 125, rfl⟩
abbrev main_call2_cst_0 : Ref sig .tc := ⟨.hbm, 126, rfl⟩
abbrev main_call2_v4 : Ref sig .tc := ⟨.hbm, 127, rfl⟩
abbrev main_call2_v5 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x128_S800000x128_S800000x1_S800000x257_d1 : Shape.Concatenates [S800000x128, S800000x128, S800000x1] S800000x257 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x3_S800000x1_S800000x3_1_0_n_n_0_1_13_wf : GatherDims.WF S50000x3 S800000x1 S800000x3 [1] [0] [] [0] [] 1 ![1, 3]
  gather_S50000x128_S800000x1_S800000x128_1_0_n_n_0_1_1128_wf : GatherDims.WF S50000x128 S800000x1 S800000x128 [1] [0] [] [0] [] 1 ![1, 128]
  dot_S800000x257_S257x128_S800000x128_1_0_0_1_n_n_wf : DotDims.WF S800000x257 S257x128 S800000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []
  scatter_S50000x3_S800000x1_S800000x3_1_0_0_1_wf : ScatterDims.WF S50000x3 S800000x1 S800000x3 [1] [0] [0] 1
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x257_S257x128_S800000x128_1_0_0_1_n_n : DotDims S800000x257 S257x128 S800000x128 where
  lhsContracting := [1]
  rhsContracting := [0]
  lhsNonContracting := [0]
  rhsNonContracting := [1]
  lhsBatch := []
  rhsBatch := []
  wf := dot_S800000x257_S257x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The kernel program's run with its results named: every weakly fair execution terminates without fault, and on
  every core the two result buffers end holding what the second region's write-backs leave — the last stage of the fold
  of buffer contents through the host stretch before the first region, the first region, the host stretch between the
  regions and the second region — while the fourteen argument buffers end as launched.
-/
import proofs.«124007_j7275674599753_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without fault; on every core the two result buffers end at
    what the second region's write-backs leave (the fold of the run through the host stretches and the two regions),
    and the argument buffers end as launched. -/
theorem run_fold : θ_run defs (onTc (τ := τ) (main (F := F))) ⟨m, fun _ => 0, ρ⟩ (fun r => ∀ c : Dev nD,
      r.2.mem ((c.tc : Thread nD τ).loc main_v44_0) = W4 m ρ c (Proc.devRef .tc main_v44_0)
      ∧ r.2.mem ((c.tc : Thread nD τ).loc main_v44_1) = W4 m ρ c (Proc.devRef .tc main_v44_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v44_0 (by decide)),
       h c _ (mem_uc main_v44_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)

end Cert.KernelIdeal.Fold

end
-- ==== Proof.BlockOps.lean ====
/-
  The vector operations a body applies to a block of 2000 rows, read at one index (r, j), at the ideal instance:
  a matrix product into a zero accumulator is the sum over the contracted axis; a bias vector of length 128 viewed as
  one row and repeated down the rows reads the vector at the column; a per-row scalar viewed as a column and repeated
  along the lanes reads the scalar at the row; a sum along the lanes of a 3-lane block is the sum of the row's entries.
-/
import proofs.«124007_j7275674599753_1_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockOps

open Cert.KernelIdeal Cert.KernelIdeal.Gen Idealize.ShloMosaic Idealize.ShloMosaic.ValueIdx

/-- In the 2000×128 by 128×128 product, the left operand is read at the result's row. -/
theorem mm_lhs0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … and the right operand at the result's column. -/
theorem mm_rhs1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- (a · b)(r, j) = Σ_k a(r, k) · b(k, j), for a 2000×128 block against a 128×128 matrix. -/
theorem mm_apply {φ₁ φ₂ : FTy} (a : FVec Ideal S2000x128 φ₁) (b : FVec Ideal S128x128 φ₂) (r : Fin 2000) (j : Fin 128) :
    matmul dot_S2000x128_S128x128_S2000x128_1_0_0_1_n_n none a b (constant (F := Ideal) S2000x128 .f32 0x00000000#32) (ix2 r j)
      = ∑ k : Fin 128, a (ix2 r k) * b (ix2 k j) := by
  refine (Ideal.matmul_constant_zero_apply dot_S2000x128_S128x128_S2000x128_1_0_0_1_n_n none a b (ix2 r j)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r j)
      ((contrEquiv1 dot_S2000x128_S128x128_S2000x128_1_0_0_1_n_n 128 rfl rfl).symm k) = ix2 r k :=
    funext fun c => Fin.ext (by
      match c with
      | ⟨0, _⟩ => exact mm_lhs0 _ _
      | ⟨1, _⟩ => exact (dot_S2000x128_S128x128_S2000x128_1_0_0_1_n_n.lhsIdx_val_of_single rfl _ _).trans hk)
  have er : dot_S2000x128_S128x128_S2000x128_1_0_0_1_n_n.rhsIdx (ix2 r j)
      ((contrEquiv1 dot_S2000x128_S128x128_S2000x128_1_0_0_1_n_n 128 rfl rfl).symm k) = ix2 k j :=
    funext fun c => Fin.ext (by
      match c with
      | ⟨0, _⟩ => exact (dot_S2000x128_S128x128_S2000x128_1_0_0_1_n_n.rhsIdx_val_of_single rfl _ _).trans hk
      | ⟨1, _⟩ => exact mm_rhs1 _ _)
  rw [el, er]

/-- In the 2000×128 by 128×1 product, the left operand is read at the result's row. -/
theorem mv_lhs0 (i : S2000x1.Idx) (q : dot_S2000x128_S128x1_S2000x1_1_0_0_1_n_n.contr.Idx) :
    (dot_S2000x128_S128x1_S2000x1_1_0_0_1_n_n.lhsIdx i q 0).val = (i 0).val := by
  unfold DotDims.lhsIdx
  rw [dif_neg (show ¬(0 : Fin S2000x128.rank) ∈ dot_S2000x128_S128x1_S2000x1_1_0_0_1_n_n.lhsBatch by decide), dif_pos (show (0 : Fin S2000x128.rank) ∈ dot_S2000x128_S128x1_S2000x1_1_0_0_1_n_n.lhsNonContracting by decide)]
  rfl
/-- … and the right operand at the result's (only) column. -/
theorem mv_rhs1 (i : S2000x1.Idx) (q : dot_S2000x128_S128x1_S2000x1_1_0_0_1_n_n.contr.Idx) :
    (dot_S2000x128_S128x1_S2000x1_1_0_0_1_n_n.rhsIdx i q 1).val = (i 1).val := by
  unfold DotDims.rhsIdx
  rw [dif_neg (show ¬(1 : Fin S128x1.rank) ∈ dot_S2000x128_S128x1_S2000x1_1_0_0_1_n_n.rhsBatch by decide), dif_pos (show (1 : Fin S128x1.rank) ∈ dot_S2000x128_S128x1_S2000x1_1_0_0_1_n_n.rhsNonContracting by decide)]
  rfl

/-- (a · b)(r, 0) = Σ_k a(r, k) · b(k, 0), for a 2000×128 block against a 128×1 column. -/
theorem mv_apply {φ₁ φ₂ : FTy} (a : FVec Ideal S2000x128 φ₁) (b : FVec Ideal S128x1 φ₂) (r : Fin 2000) (u : Fin 1) :
    matmul dot_S2000x128_S128x1_S2000x1_1_0_0_1_n_n none a b (constant (F := Ideal) S2000x1 .f32 0x00000000#32) (ix2 r u)
      = ∑ k : Fin 128, a (ix2 r k) * b (ix2 k (0 : Fin 1)) := by
  refine (Ideal.matmul_constant_zero_apply dot_S2000x128_S128x1_S2000x1_1_0_0_1_n_n none a b (ix2 r u)).trans ?_
  rw [← Equiv.sum_comp (contrEquiv1 dot_S2000x128_S128x1_S2000x1_1_0_0_1_n_n 128 rfl rfl).symm]
  refine Finset.sum_congr rfl fun k _ => ?_
  have hk := contrEquiv1_symm_val dot_S2000x128_S128x1_S2000x1_1_0_0_1_n_n 128 rfl rfl k
  have hu : u.val = 0 := by omega
  have el : dot_S2000x128_S128x1_S2000x1_1_0_0_1_n_n.lhsIdx (ix2 r u)
      ((contrEquiv1 dot_S2000x128_S128x1_S2000x1_1_0_0_1_n_n 128 rfl rfl).symm k) = ix2 r k :=
    funext fun c => Fin.ext (by
      match c with
      | ⟨0, _⟩ => exact mv_lhs0 _ _
      | ⟨1, _⟩ => exact (dot_S2000x128_S128x1_S2000x1_1_0_0_1_n_n.lhsIdx_val_of_single rfl _ _).trans hk)
  have er : dot_S2000x128_S128x1_S2000x1_1_0_0_1_n_n.rhsIdx (ix2 r u)
      ((contrEquiv1 dot_S2000x128_S128x1_S2000x1_1_0_0_1_n_n 128 rfl rfl).symm k) = ix2 k (0 : Fin 1) :=
    funext fun c => Fin.ext (by
      match c with
      | ⟨0, _⟩ => exact (dot_S2000x128_S128x1_S2000x1_1_0_0_1_n_n.rhsIdx_val_of_single rfl _ _).trans hk
      | ⟨1, _⟩ => exact (mv_rhs1 _ _).trans hu)
  rw [el, er]

/-- A vector of length 128, viewed as one row and repeated down 2000 rows, reads the vector at the column. -/
theorem rowBias_apply {α : Type} (v : S128.Idx → α) (r : Fin 2000) (j : Fin 128) :
    broadcastTo S2000x128 (shapeCast S1x128 v shapeCasts_S128_S1x128) broadcasts_S1x128_S2000x128 (ix2 r j) = v (ix1 j) := by
  rw [broadcastTo_1b_ab_apply (a := 2000) (b := 128) _ broadcasts_S1x128_S2000x128 r j]
  exact shapeCast_a_1a_apply (a := 128) v shapeCasts_S128_S1x128 0 j

/-- One row of length 128 repeated down 2000 rows reads the row at the column. -/
theorem oneRow_apply {α : Type} (v : S1x128.Idx → α) (r : Fin 2000) (j : Fin 128) :
    broadcastTo S2000x128 v broadcasts_S1x128_S2000x128 (ix2 r j) = v (ix2 (0 : Fin 1) j) :=
  broadcastTo_1b_ab_apply (a := 2000) (b := 128) v broadcasts_S1x128_S2000x128 r j

/-- A per-row scalar, viewed as a column and repeated along 128 lanes, reads the scalar at the row. -/
theorem column_apply {α : Type} (v : S2000.Idx → α) (r : Fin 2000) (j : Fin 128) :
    broadcastTo S2000x128 (shapeCast S2000x1 v shapeCasts_S2000_S2000x1) broadcasts_S2000x1_S2000x128 (ix2 r j) = v (ix1 r) := by
  rw [broadcastTo_apply _ broadcasts_S2000x1_S2000x128 (ix2 r j) (ix2 r (0 : Fin 1)) (fun c => by
    match c with
    | ⟨0, _⟩ => rfl
    | ⟨1, _⟩ => rfl)]
  exact shapeCast_apply v shapeCasts_S2000_S2000x1 _ (ix1 r) (by
    rw [Shape.rowMajor_val_two, Shape.rowMajor_val_one]
    show r.val = r.val * 1 + 0
    omega)

/-- A column of 2000 scalars repeated along 3 lanes reads the column at the row. -/
theorem column3_apply {α : Type} (v : S2000x1.Idx → α) (r : Fin 2000) (d : Fin 3) :
    broadcastTo S2000x3 v broadcasts_S2000x1_S2000x3 (ix2 r d) = v (ix2 r (0 : Fin 1)) :=
  broadcastTo_apply _ broadcasts_S2000x1_S2000x3 (ix2 r d) (ix2 r (0 : Fin 1)) (fun c => by
    match c with
    | ⟨0, _⟩ => rfl
    | ⟨1, _⟩ => rfl)

/-- The sum along the 3 lanes of a 2000×3 block, at row r. -/
theorem laneSum_apply (v : FVec Ideal S2000x3 .f32) (hacc : (0x00000000#32 : BitVec 32) = 0x00000000#32) (r : Fin 2000) :
    multiReduction (F := Ideal) .add [1] S2000 v 0x00000000#32 reduces_S2000x3_S2000 (.inl rfl) hacc (ix1 r)
      = ∑ d : Fin 3, v (ix2 r d) := by
  refine (Ideal.multiReduction_add_single v 0x00000000#32 reduces_S2000x3_S2000 (.inl rfl) hacc (ix1 r)).trans ?_
  refine Finset.sum_congr rfl fun d _ => congrArg v ?_
  funext c
  apply Fin.ext
  match c with
  | ⟨0, _⟩ => rfl
  | ⟨1, _⟩ => rfl

end Cert.KernelIdeal.BlockOps

end
-- ==== Proof.Layer.lean ====
/-
  The per-edge and per-node functions of one equivariant message-passing layer, over the extended reals.

  For one edge with source row "hr", target row "hc" (feature vectors of length 128) and coordinates "xr", "xc"
  (length 3):
    radial   = Σ_d (xr d − xc d)²
    hidden k = silu (((Σ_l hr l · wr l k) + (Σ_l hc l · wc l k)) + radial · wrad k + b1 k)
    msg j    = (Σ_k hidden k · w2 k j) + b2 j
    coef     = Σ_k silu ((Σ_j msg j · cw1 j k) + cb1 k) · cw2 k
    shift d  = (xr d − xc d) · coef
  and for one node with features "h" and aggregated messages "agg":
    nodeOut j = h j + ((Σ_k silu (((Σ_l h l · wh l k) + (Σ_l agg l · wa l k)) + nb1 k) · nw2 k j) + nb2 j).
  silu z = z · logistic z.  A sum over 257 (resp. 256) terms is regrouped as 128 + 128 + 1 (resp. 128 + 128) terms:
  addition of extended reals is commutative and associative, so no finiteness is needed.
-/
import Idealize.ShloMosaic.PureOps.Ideal
import Idealize.ShloMosaic.PureOps.Ideal.Laws

noncomputable section

namespace Cert.Layer

open Idealize.ShloMosaic

/-- silu z = z · logistic z = z / (1 + e^(−z)). -/
def silu (z : EReal) : EReal := z * Ideal.logistic z

/-- The expanded form z · (1 / (1 + e^(−z))) is the same function: logistic is defined as that quotient. -/
theorem silu_expanded (z : EReal) : z * Ideal.div 1 (1 + Ideal.exp (-z)) = silu z := rfl

/-- The single-precision word 0x3F800000 denotes the real number one. -/
theorem one_f32 : Ideal.ofBits .f32 0x3F800000#32 = 1 := by
  simp [Ideal.ofBits, Ideal.ieee, -EReal.coe_mul]; norm_num

section Edge

variable (hr hc : Fin 128 → EReal) (xr xc : Fin 3 → EReal)
  (wr wc : Fin 128 → Fin 128 → EReal) (wrad b1 : Fin 128 → EReal)
  (w2 : Fin 128 → Fin 128 → EReal) (b2 : Fin 128 → EReal)
  (cw1 : Fin 128 → Fin 128 → EReal) (cb1 cw2 : Fin 128 → EReal)

/-- Squared distance of the two endpoints. -/
def radial : EReal := ∑ d : Fin 3, (xr d - xc d) * (xr d - xc d)

/-- The first layer of the edge network: the three partial products, the bias, silu. -/
def hidden (k : Fin 128) : EReal :=
  silu ((((∑ l : Fin 128, hr l * wr l k) + ∑ l : Fin 128, hc l * wc l k) + radial xr xc * wrad k) + b1 k)

/-- The message of the edge. -/
def msg (j : Fin 128) : EReal :=
  (∑ k : Fin 128, hidden hr hc xr xc wr wc wrad b1 k * w2 k j) + b2 j

/-- The scalar coefficient of the coordinate update, a function of the message alone. -/
def coefOf (mv : Fin 128 → EReal) : EReal :=
  ∑ k : Fin 128, silu ((∑ j : Fin 128, mv j * cw1 j k) + cb1 k) * cw2 k

/-- The coordinate shift the edge contributes. -/
def shiftOf (mv : Fin 128 → EReal) (d : Fin 3) : EReal := (xr d - xc d) * coefOf cw1 cb1 cw2 mv

end Edge

section Node

variable (h agg : Fin 128 → EReal) (wh wa : Fin 128 → Fin 128 → EReal) (nb1 : Fin 128 → EReal)
  (nw2 : Fin 128 → Fin 128 → EReal) (nb2 : Fin 128 → EReal)

/-- The node network's hidden layer. -/
def nodeHidden (k : Fin 128) : EReal :=
  silu (((∑ l : Fin 128, h l * wh l k) + ∑ l : Fin 128, agg l * wa l k) + nb1 k)

/-- The residual node update. -/
def nodeOut (j : Fin 128) : EReal :=
  h j + ((∑ k : Fin 128, nodeHidden h agg wh wa nb1 k * nw2 k j) + nb2 j)

end Node

/-- A sum of 257 terms as the first 128, the next 128 and the last one. -/
theorem sum_257 (f : Fin 257 → EReal) :
    ∑ l : Fin 257, f l
      = ((∑ l : Fin 128, f ⟨l.val, by omega⟩) + ∑ l : Fin 128, f ⟨128 + l.val, by omega⟩) + f ⟨256, by omega⟩ := by
  rw [Fin.sum_univ_castSucc (n := 256) f, Fin.sum_univ_add (a := 128) (b := 128) fun i => f (Fin.castSucc i)]
  rfl

/-- A sum of 256 terms as the first 128 and the next 128. -/
theorem sum_256 (f : Fin 256 → EReal) :
    ∑ l : Fin 256, f l = (∑ l : Fin 128, f ⟨l.val, by omega⟩) + ∑ l : Fin 128, f ⟨128 + l.val, by omega⟩ := by
  rw [Fin.sum_univ_add (a := 128) (b := 128) f]
  rfl

end Cert.Layer

end
-- ==== Proof.Bodies.lean ====
/-
  The two kernels' bodies, read at one index of a block of 2000 rows, at the ideal instance.
  Edge body: the stored message block at (r, j) is the layer's message of row r of the four input blocks; the stored
  shift block at (r, d) is the coordinate difference at (r, d) times the coefficient computed from row r of the message.
  Node body: the stored feature block at (r, j) is the residual node update of row r; the stored coordinate block is the
  sum of its two input blocks. Rounding to the narrower float format is the identity on extended reals.
-/
import proofs.«124007_j7275674599753_1_alg».proof.Proof.Gen.KernelIdeal.Skeleton
import proofs.«124007_j7275674599753_1_alg».proof.Proof.BlockOps
import proofs.«124007_j7275674599753_1_alg».proof.Proof.Layer

noncomputable section

namespace Cert.KernelIdeal.Bodies

open Cert.KernelIdeal Cert.KernelIdeal.Gen Cert.KernelIdeal.BlockOps Idealize.ShloMosaic Idealize.ShloMosaic.ValueIdx

/-- silu of a block, rounded to the narrow format, at an index. -/
theorem silu_block {s : Shape} (z : FVec Ideal s .f32) (h : FTy.bf16.bits < FTy.f32.bits) (i : s.Idx) :
    (truncf .bf16 (mulf z (logistic z)) h : FVec Ideal s .bf16) i = Cert.Layer.silu (z i) := rfl

/-- The coordinate difference of the two endpoint blocks. -/
theorem diff_apply (x2 x3 : Vec Ideal S2000x3 .f32) (r : Fin 2000) (d : Fin 3) :
    k0_pay3 x2 x3 (ix2 r d) = x2 (ix2 r d) - x3 (ix2 r d) := by
  unfold k0_pay3
  simp only [shapeCast_self]
  rfl

/-- The hidden layer of the edge network at (r, k). -/
theorem hidden_apply (x0 x1 : Vec Ideal S2000x128 .f32) (x2 x3 : Vec Ideal S2000x3 .f32) (x4 x5 : Vec Ideal S128x128 .f32)
    (x6 : Vec Ideal S1x128 .f32) (x7 : Vec Ideal S128 .f32) (r : Fin 2000) (k : Fin 128) :
    k0_pay4 x0 x1 x2 x3 x4 x5 x6 x7 (ix2 r k)
      = Cert.Layer.hidden (fun l => x0 (ix2 r l)) (fun l => x1 (ix2 r l)) (fun d => x2 (ix2 r d)) (fun d => x3 (ix2 r d))
          (fun l k => x4 (ix2 l k)) (fun l k => x5 (ix2 l k)) (fun k => x6 (ix2 (0 : Fin 1) k)) (fun k => x7 (ix1 k)) k := by
  unfold k0_pay4 k0_pay3
  simp only [shapeCast_self]
  refine (silu_block _ _ _).trans ?_
  unfold Cert.Layer.hidden
  refine congrArg Cert.Layer.silu ?_
  refine congrArg₂ (· + ·) (congrArg₂ (· + ·) (congrArg₂ (· + ·) ?_ ?_) (congrArg₂ (· * ·) ?_ ?_)) ?_
  · exact mm_apply _ _ r k
  · exact mm_apply _ _ r k
  · refine (column_apply _ r k).trans ((laneSum_apply _ _ r).trans ?_)
    rfl
  · exact oneRow_apply x6 r k
  · exact rowBias_apply x7 r k

/-- The message block at (r, j). -/
theorem msg_apply (x0 x1 : Vec Ideal S2000x128 .f32) (x2 x3 : Vec Ideal S2000x3 .f32) (x4 x5 : Vec Ideal S128x128 .f32)
    (x6 : Vec Ideal S1x128 .f32) (x7 : Vec Ideal S128 .f32) (x8 : Vec Ideal S128x128 .f32) (x9 : Vec Ideal S128 .f32)
    (r : Fin 2000) (j : Fin 128) :
    k0_pay1 (k0_pay4 x0 x1 x2 x3 x4 x5 x6 x7) (k0_pay5 x8) (constant (F := Ideal) S2000x128 .f32 0x00000000#32) x9 (ix2 r j)
      = Cert.Layer.msg (fun l => x0 (ix2 r l)) (fun l => x1 (ix2 r l)) (fun d => x2 (ix2 r d)) (fun d => x3 (ix2 r d))
          (fun l k => x4 (ix2 l k)) (fun l k => x5 (ix2 l k)) (fun k => x6 (ix2 (0 : Fin 1) k)) (fun k => x7 (ix1 k))
          (fun k j => x8 (ix2 k j)) (fun j => x9 (ix1 j)) j := by
  unfold k0_pay1 Cert.Layer.msg
  refine congrArg₂ (· + ·) ?_ (rowBias_apply x9 r j)
  refine (mm_apply _ _ r j).trans (Finset.sum_congr rfl fun k _ => congrArg₂ (· * ·) (hidden_apply x0 x1 x2 x3 x4 x5 x6 x7 r k) ?_)
  rfl

/-- The shift block at (r, d): the difference block's entry times the coefficient of row r of the message. -/
theorem shift_apply (v8 : FVec Ideal S2000x3 .f32) (v35 : FVec Ideal S2000x128 .bf16) (v37 : FVec Ideal S128x128 .bf16)
    (cst : FVec Ideal S2000x128 .f32) (v39 : Vec Ideal S128 .f32) (x10 : Vec Ideal S128x128 .f32) (x11 : Vec Ideal S128 .f32)
    (x12 : Vec Ideal S128x1 .f32) (r : Fin 2000) (d : Fin 3) :
    k0_pay2 v8 v35 v37 cst v39 x10 x11 x12 (ix2 r d)
      = v8 (ix2 r d) * Cert.Layer.coefOf (fun j k => x10 (ix2 j k)) (fun k => x11 (ix1 k)) (fun k => x12 (ix2 k (0 : Fin 1)))
          (fun j => k0_pay1 v35 v37 cst v39 (ix2 r j)) := by
  unfold k0_pay2
  generalize k0_pay1 v35 v37 cst v39 = M
  refine congrArg₂ (· * ·) rfl ?_
  refine (column3_apply _ r d).trans ((mv_apply _ _ r 0).trans ?_)
  unfold Cert.Layer.coefOf
  refine Finset.sum_congr rfl fun k _ => congrArg₂ (· * ·) ?_ rfl
  refine (silu_block _ _ _).trans (congrArg Cert.Layer.silu ?_)
  refine congrArg₂ (· + ·) ?_ (rowBias_apply x11 r k)
  exact mm_apply _ _ r k

/-- The node body's feature block at (r, j). -/
theorem node_apply (x0 x1 : Vec Ideal S2000x128 .f32) (x4 x5 : Vec Ideal S128x128 .f32) (x6 : Vec Ideal S128 .f32)
    (x7 : Vec Ideal S128x128 .f32) (x8 : Vec Ideal S128 .f32) (r : Fin 2000) (j : Fin 128) :
    k1_pay1 x0 x1 x4 x5 x6 x7 x8 (ix2 r j)
      = Cert.Layer.nodeOut (fun l => x0 (ix2 r l)) (fun l => x1 (ix2 r l)) (fun l k => x4 (ix2 l k)) (fun l k => x5 (ix2 l k))
          (fun k => x6 (ix1 k)) (fun k j => x7 (ix2 k j)) (fun j => x8 (ix1 j)) j := by
  unfold k1_pay1 Cert.Layer.nodeOut
  simp only [shapeCast_self]
  refine congrArg₂ (· + ·) rfl (congrArg₂ (· + ·) ?_ (rowBias_apply x8 r j))
  refine (mm_apply _ _ r j).trans (Finset.sum_congr rfl fun k _ => congrArg₂ (· * ·) ?_ rfl)
  refine (silu_block _ _ _).trans ?_
  unfold Cert.Layer.nodeHidden
  refine congrArg Cert.Layer.silu (congrArg₂ (· + ·) (congrArg₂ (· + ·) ?_ ?_) (rowBias_apply x6 r k))
  · exact mm_apply _ _ r k
  · exact mm_apply _ _ r k

/-- The node body's coordinate block. -/
theorem xsum_apply (x2 x3 : Vec Ideal S2000x3 .f32) (i : S2000x3.Idx) : k1_pay2 x2 x3 i = x2 i + x3 i := by
  unfold k1_pay2
  simp only [shapeCast_self]
  rfl

end Cert.KernelIdeal.Bodies

end
-- ==== Proof.Arrays.lean ====
/-
  The layer's arrays, as functions of whole arrays: entry (e, j) of the message array is the layer's message of row e
  of the four per-edge arrays; entry (e, d) of the shift array is the coordinate difference times the coefficient of
  row e of a message array; entry (n, j) of the updated features is the residual node update of row n; the updated
  coordinates are the coordinates plus the aggregated shifts. Weights enter as functions of their two indices, so that
  a weight matrix may be given as a row range of a larger one.
-/
import proofs.«124007_j7275674599753_1_alg».proof.Proof.Layer
import Idealize.ShloMosaic.Lib.ValueIdx

noncomputable section

namespace Cert.Layer

open Idealize.ShloMosaic Idealize.ShloMosaic.ValueIdx

/-- The message array [800000, 128]. -/
def msgArr (A0 A1 : (⟨2, ![800000, 128]⟩ : Shape).Idx → EReal) (A2 A3 : (⟨2, ![800000, 3]⟩ : Shape).Idx → EReal)
    (wr wc : Fin 128 → Fin 128 → EReal) (wrad b1 : Fin 128 → EReal) (w2 : Fin 128 → Fin 128 → EReal) (b2 : Fin 128 → EReal) :
    (⟨2, ![800000, 128]⟩ : Shape).Idx → EReal := fun i =>
  msg (fun l => A0 (ix2 (⟨(i 0).val, (i 0).isLt⟩ : Fin 800000) l)) (fun l => A1 (ix2 (⟨(i 0).val, (i 0).isLt⟩ : Fin 800000) l))
    (fun d => A2 (ix2 (⟨(i 0).val, (i 0).isLt⟩ : Fin 800000) d)) (fun d => A3 (ix2 (⟨(i 0).val, (i 0).isLt⟩ : Fin 800000) d))
    wr wc wrad b1 w2 b2 (⟨(i 1).val, (i 1).isLt⟩ : Fin 128)

theorem msgArr_apply (A0 A1 : (⟨2, ![800000, 128]⟩ : Shape).Idx → EReal) (A2 A3 : (⟨2, ![800000, 3]⟩ : Shape).Idx → EReal)
    (wr wc : Fin 128 → Fin 128 → EReal) (wrad b1 : Fin 128 → EReal) (w2 : Fin 128 → Fin 128 → EReal) (b2 : Fin 128 → EReal)
    (e : Fin 800000) (j : Fin 128) :
    msgArr A0 A1 A2 A3 wr wc wrad b1 w2 b2 (ix2 e j)
      = msg (fun l => A0 (ix2 e l)) (fun l => A1 (ix2 e l)) (fun d => A2 (ix2 e d)) (fun d => A3 (ix2 e d)) wr wc wrad b1 w2 b2 j := rfl

/-- The shift array [800000, 3] of a message array. -/
def shiftArr (A2 A3 : (⟨2, ![800000, 3]⟩ : Shape).Idx → EReal) (cw1 : Fin 128 → Fin 128 → EReal) (cb1 cw2 : Fin 128 → EReal)
    (M : (⟨2, ![800000, 128]⟩ : Shape).Idx → EReal) : (⟨2, ![800000, 3]⟩ : Shape).Idx → EReal := fun i =>
  shiftOf (fun d => A2 (ix2 (⟨(i 0).val, (i 0).isLt⟩ : Fin 800000) d)) (fun d => A3 (ix2 (⟨(i 0).val, (i 0).isLt⟩ : Fin 800000) d))
    cw1 cb1 cw2 (fun j => M (ix2 (⟨(i 0).val, (i 0).isLt⟩ : Fin 800000) j)) (⟨(i 1).val, (i 1).isLt⟩ : Fin 3)

theorem shiftArr_apply (A2 A3 : (⟨2, ![800000, 3]⟩ : Shape).Idx → EReal) (cw1 : Fin 128 → Fin 128 → EReal) (cb1 cw2 : Fin 128 → EReal)
    (M : (⟨2, ![800000, 128]⟩ : Shape).Idx → EReal) (e : Fin 800000) (d : Fin 3) :
    shiftArr A2 A3 cw1 cb1 cw2 M (ix2 e d)
      = shiftOf (fun d => A2 (ix2 e d)) (fun d => A3 (ix2 e d)) cw1 cb1 cw2 (fun j => M (ix2 e j)) d := rfl

/-- The updated feature array [50000, 128]. -/
def nodeArr (A0 A1 : (⟨2, ![50000, 128]⟩ : Shape).Idx → EReal) (wh wa : Fin 128 → Fin 128 → EReal) (nb1 : Fin 128 → EReal)
    (nw2 : Fin 128 → Fin 128 → EReal) (nb2 : Fin 128 → EReal) : (⟨2, ![50000, 128]⟩ : Shape).Idx → EReal := fun i =>
  nodeOut (fun l => A0 (ix2 (⟨(i 0).val, (i 0).isLt⟩ : Fin 50000) l)) (fun l => A1 (ix2 (⟨(i 0).val, (i 0).isLt⟩ : Fin 50000) l))
    wh wa nb1 nw2 nb2 (⟨(i 1).val, (i 1).isLt⟩ : Fin 128)

theorem nodeArr_apply (A0 A1 : (⟨2, ![50000, 128]⟩ : Shape).Idx → EReal) (wh wa : Fin 128 → Fin 128 → EReal) (nb1 : Fin 128 → EReal)
    (nw2 : Fin 128 → Fin 128 → EReal) (nb2 : Fin 128 → EReal) (n : Fin 50000) (j : Fin 128) :
    nodeArr A0 A1 wh wa nb1 nw2 nb2 (ix2 n j)
      = nodeOut (fun l => A0 (ix2 n l)) (fun l => A1 (ix2 n l)) wh wa nb1 nw2 nb2 j := rfl

/-- The updated coordinates [50000, 3]. -/
def xArr (A2 A3 : (⟨2, ![50000, 3]⟩ : Shape).Idx → EReal) : (⟨2, ![50000, 3]⟩ : Shape).Idx → EReal := fun i => A2 i + A3 i

end Cert.Layer

end
-- ==== Proof.EdgeBlocks.lean ====
/-
  The edge kernel's two output arrays after its grid of 400 points, as functions of the arrays the kernel finds on entry.
  Point t stages rows 2000·t … 2000·t + 1999 of the four per-edge input arrays and the whole of each weight array,
  and writes back rows 2000·t … 2000·t + 1999 of the message array [800000, 128] and of the shift array [800000, 3].
  The 400 row blocks cover each output array, so the message array holds, at (e, j), the layer's message of row e of
  the inputs, and the shift array at (e, d) the coordinate difference times the coefficient of row e of the message.
-/
import proofs.«124007_j7275674599753_1_alg».proof.Proof.Gen.KernelIdeal.Frame
import proofs.«124007_j7275674599753_1_alg».proof.Proof.Bodies
import proofs.«124007_j7275674599753_1_alg».proof.Proof.Arrays
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.EdgeBlocks

open Cert.KernelIdeal Cert.KernelIdeal.Gen Cert.KernelIdeal.Bodies

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the per-edge windows and the two outputs move one row block per point, the
    weight windows stay at block 0. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_13.index t (0 : Fin 2) = t.val ∧ win0_13.index t (1 : Fin 2) = 0)
    ∧ (win0_14.index t (0 : Fin 2) = t.val ∧ win0_14.index t (1 : Fin 2) = 0) :=
  (by decide +kernel : ∀ t : Fin grid0.N, _)

theorem idx_weights : ∀ t : Fin cfg0.N,
    (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ win0_7.index t (0 : Fin 1) = 0
    ∧ (win0_8.index t (0 : Fin 2) = 0 ∧ win0_8.index t (1 : Fin 2) = 0)
    ∧ win0_9.index t (0 : Fin 1) = 0
    ∧ (win0_10.index t (0 : Fin 2) = 0 ∧ win0_10.index t (1 : Fin 2) = 0)
    ∧ win0_11.index t (0 : Fin 1) = 0
    ∧ (win0_12.index t (0 : Fin 2) = 0 ∧ win0_12.index t (1 : Fin 2) = 0) :=
  (by decide +kernel : ∀ t : Fin grid0.N, _)

theorem tlt (t : Fin cfg0.N) : t.val < 400 := by
  have h := t.isLt
  have hN : cfg0.N = 400 := N_0
  omega

/-! ## Each input window's block at point t, as entries of its array -/

theorem blk0 (c : Dev nD) (t : Fin cfg0.N) (r : Fin 2000) (l : Fin 128) :
    (iblk0 V c 0 t : Vec Ideal S2000x128 .f32) (ix2 r l)
      = (V c (Pipeline.arrRef spec0 0) : S800000x128.Idx → EReal) (ix2 (⟨t.val * 2000 + r.val, by have := tlt t; omega⟩ : Fin 800000) l) := by
  obtain ⟨⟨e0, e1⟩, -⟩ := idx_facts t
  show V c (Pipeline.arrRef spec0 0) (((cfg0.win 0).blk t).view.emb (ix2 r l)) = _
  refine congrArg _ (funext fun a => Fin.ext ?_)
  match a with
  | ⟨0, _⟩ => show win0_0.index t (0 : Fin 2) * 2000 + 1 * r.val = t.val * 2000 + r.val; rw [e0]; omega
  | ⟨1, _⟩ => show win0_0.index t (1 : Fin 2) * 128 + 1 * l.val = l.val; rw [e1]; omega

theorem blk1 (c : Dev nD) (t : Fin cfg0.N) (r : Fin 2000) (l : Fin 128) :
    (iblk0 V c 1 t : Vec Ideal S2000x128 .f32) (ix2 r l)
      = (V c (Pipeline.arrRef spec0 1) : S800000x128.Idx → EReal) (ix2 (⟨t.val * 2000 + r.val, by have := tlt t; omega⟩ : Fin 800000) l) := by
  obtain ⟨-, ⟨e0, e1⟩, -⟩ := idx_facts t
  show V c (Pipeline.arrRef spec0 1) (((cfg0.win 1).blk t).view.emb (ix2 r l)) = _
  refine congrArg _ (funext fun a => Fin.ext ?_)
  match a with
  | ⟨0, _⟩ => show win0_1.index t (0 : Fin 2) * 2000 + 1 * r.val = t.val * 2000 + r.val; rw [e0]; omega
  | ⟨1, _⟩ => show win0_1.index t (1 : Fin 2) * 128 + 1 * l.val = l.val; rw [e1]; omega

theorem blk2 (c : Dev nD) (t : Fin cfg0.N) (r : Fin 2000) (d : Fin 3) :
    (iblk0 V c 2 t : Vec Ideal S2000x3 .f32) (ix2 r d)
      = (V c (Pipeline.arrRef spec0 2) : S800000x3.Idx → EReal) (ix2 (⟨t.val * 2000 + r.val, by have := tlt t; omega⟩ : Fin 800000) d) := by
  obtain ⟨-, -, ⟨e0, e1⟩, -⟩ := idx_facts t
  show V c (Pipeline.arrRef spec0 2) (((cfg0.win 2).blk t).view.emb (ix2 r d)) = _
  refine congrArg _ (funext fun a => Fin.ext ?_)
  match a with
  | ⟨0, _⟩ => show win0_2.index t (0 : Fin 2) * 2000 + 1 * r.val = t.val * 2000 + r.val; rw [e0]; omega
  | ⟨1, _⟩ => show win0_2.index t (1 : Fin 2) * 3 + 1 * d.val = d.val; rw [e1]; omega

theorem blk3 (c : Dev nD) (t : Fin cfg0.N) (r : Fin 2000) (d : Fin 3) :
    (iblk0 V c 3 t : Vec Ideal S2000x3 .f32) (ix2 r d)
      = (V c (Pipeline.arrRef spec0 3) : S800000x3.Idx → EReal) (ix2 (⟨t.val * 2000 + r.val, by have := tlt t; omega⟩ : Fin 800000) d) := by
  obtain ⟨-, -, -, ⟨e0, e1⟩, -⟩ := idx_facts t
  show V c (Pipeline.arrRef spec0 3) (((cfg0.win 3).blk t).view.emb (ix2 r d)) = _
  refine congrArg _ (funext fun a => Fin.ext ?_)
  match a with
  | ⟨0, _⟩ => show win0_3.index t (0 : Fin 2) * 2000 + 1 * r.val = t.val * 2000 + r.val; rw [e0]; omega
  | ⟨1, _⟩ => show win0_3.index t (1 : Fin 2) * 3 + 1 * d.val = d.val; rw [e1]; omega

/-- A weight window's block is its whole array. -/
theorem wblk4 (c : Dev nD) (t : Fin cfg0.N) : (iblk0 V c 4 t : Vec Ideal S128x128 .f32) = V c (Pipeline.arrRef spec0 4) := by
  obtain ⟨⟨e0, e1⟩, -⟩ := idx_weights t
  funext y
  show V c (Pipeline.arrRef spec0 4) (((cfg0.win 4).blk t).view.emb y) = _
  refine congrArg _ (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega
theorem wblk5 (c : Dev nD) (t : Fin cfg0.N) : (iblk0 V c 5 t : Vec Ideal S128x128 .f32) = V c (Pipeline.arrRef spec0 5) := by
  obtain ⟨-, ⟨e0, e1⟩, -⟩ := idx_weights t
  funext y
  show V c (Pipeline.arrRef spec0 5) (((cfg0.win 5).blk t).view.emb y) = _
  refine congrArg _ (funext fun a => Fin.ext ?_)
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega
theorem wblk6 (c : Dev nD) (t : Fin cfg0.N) : (iblk0 V c 6 t : Vec Ideal S1x128 .f32) = V c (Pipeline.arrRef spec0 6) := by
  obtain ⟨-, -, ⟨e0, e1⟩, -⟩ := idx_weights t
  funext y
  show V c (Pipeline.arrRef spec0 6) (((cfg0.win 6).blk t).view.emb y) = _
  refine congrArg _ (funext fun a => Fin.ext ?_)
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega
theorem wblk7 (c : Dev nD) (t : Fin cfg0.N) : (iblk0 V c 7 t : Vec Ideal S128 .f32) = V c (Pipeline.arrRef spec0 7) := by
  obtain ⟨-, -, -, e0, -⟩ := idx_weights t
  funext y
  show V c (Pipeline.arrRef spec0 7) (((cfg0.win 7).blk t).view.emb y) = _
  refine congrArg _ (funext fun a => Fin.ext ?_)
  match a with
  | ⟨0, _⟩ => show win0_7.index t (0 : Fin 1) * 128 + 1 * (y 0).val = (y 0).val; rw [e0]; omega
theorem wblk8 (c : Dev nD) (t : Fin cfg0.N) : (iblk0 V c 8 t : Vec Ideal S128x128 .f32) = V c (Pipeline.arrRef spec0 8) := by
  obtain ⟨-, -, -, -, ⟨e0, e1⟩, -⟩ := idx_weights t
  funext y
  show V c (Pipeline.arrRef spec0 8) (((cfg0.win 8).blk t).view.emb y) = _
  refine congrArg _ (funext fun a => Fin.ext ?_)
  match a with
  | ⟨0, _⟩ => show win0_8.index t (0 : Fin 2) * 128 + 1 * (y 0).val = (y 0).val; rw [e0]; omega
  | ⟨1, _⟩ => show win0_8.index t (1 : Fin 2) * 128 + 1 * (y 1).val = (y 1).val; rw [e1]; omega
theorem wblk9 (c : Dev nD) (t : Fin cfg0.N) : (iblk0 V c 9 t : Vec Ideal S128 .f32) = V c (Pipeline.arrRef spec0 9) := by
  obtain ⟨-, -, -, -, -, e0, -⟩ := idx_weights t
  funext y
  show V c (Pipeline.arrRef spec0 9) (((cfg0.win 9).blk t).view.emb y) = _
  refine congrArg _ (funext fun a => Fin.ext ?_)
  match a with
  | ⟨0, _⟩ => show win0_9.index t (0 : Fin 1) * 128 + 1 * (y 0).val = (y 0).val; rw [e0]; omega
theorem wblk10 (c : Dev nD) (t : Fin cfg0.N) : (iblk0 V c 10 t : Vec Ideal S128x128 .f32) = V c (Pipeline.arrRef spec0 10) := by
  obtain ⟨-, -, -, -, -, -, ⟨e0, e1⟩, -⟩ := idx_weights t
  funext y
  show V c (Pipeline.arrRef spec0 10) (((cfg0.win 10).blk t).view.emb y) = _
  refine congrArg _ (funext fun a => Fin.ext ?_)
  match a with
  | ⟨0, _⟩ => show win0_10.index t (0 : Fin 2) * 128 + 1 * (y 0).val = (y 0).val; rw [e0]; omega
  | ⟨1, _⟩ => show win0_10.index t (1 : Fin 2) * 128 + 1 * (y 1).val = (y 1).val; rw [e1]; omega
theorem wblk11 (c : Dev nD) (t : Fin cfg0.N) : (iblk0 V c 11 t : Vec Ideal S128 .f32) = V c (Pipeline.arrRef spec0 11) := by
  obtain ⟨-, -, -, -, -, -, -, e0, -⟩ := idx_weights t
  funext y
  show V c (Pipeline.arrRef spec0 11) (((cfg0.win 11).blk t).view.emb y) = _
  refine congrArg _ (funext fun a => Fin.ext ?_)
  match a with
  | ⟨0, _⟩ => show win0_11.index t (0 : Fin 1) * 128 + 1 * (y 0).val = (y 0).val; rw [e0]; omega
theorem wblk12 (c : Dev nD) (t : Fin cfg0.N) : (iblk0 V c 12 t : Vec Ideal S128x1 .f32) = V c (Pipeline.arrRef spec0 12) := by
  obtain ⟨-, -, -, -, -, -, -, -, e0, e1⟩ := idx_weights t
  funext y
  show V c (Pipeline.arrRef spec0 12) (((cfg0.win 12).blk t).view.emb y) = _
  refine congrArg _ (funext fun a => Fin.ext ?_)
  match a with
  | ⟨0, _⟩ => show win0_12.index t (0 : Fin 2) * 128 + 1 * (y 0).val = (y 0).val; rw [e0]; omega
  | ⟨1, _⟩ => show win0_12.index t (1 : Fin 2) * 1 + 1 * (y 1).val = (y 1).val; rw [e1]; omega

/-- The message array of the arrays the region finds. -/
abbrev msgOf (c : Dev nD) : S800000x128.Idx → EReal :=
  Cert.Layer.msgArr (V c (Pipeline.arrRef spec0 0)) (V c (Pipeline.arrRef spec0 1)) (V c (Pipeline.arrRef spec0 2)) (V c (Pipeline.arrRef spec0 3))
    (fun l k => (V c (Pipeline.arrRef spec0 4) : S128x128.Idx → EReal) (ix2 l k)) (fun l k => (V c (Pipeline.arrRef spec0 5) : S128x128.Idx → EReal) (ix2 l k))
    (fun k => (V c (Pipeline.arrRef spec0 6) : S1x128.Idx → EReal) (ix2 (0 : Fin 1) k)) (fun k => (V c (Pipeline.arrRef spec0 7) : S128.Idx → EReal) (ix1 k))
    (fun k j => (V c (Pipeline.arrRef spec0 8) : S128x128.Idx → EReal) (ix2 k j)) (fun j => (V c (Pipeline.arrRef spec0 9) : S128.Idx → EReal) (ix1 j))

/-- The shift array of the arrays the region finds. -/
abbrev shiftArrOf (c : Dev nD) : S800000x3.Idx → EReal :=
  Cert.Layer.shiftArr (V c (Pipeline.arrRef spec0 2)) (V c (Pipeline.arrRef spec0 3))
    (fun j k => (V c (Pipeline.arrRef spec0 10) : S128x128.Idx → EReal) (ix2 j k)) (fun k => (V c (Pipeline.arrRef spec0 11) : S128.Idx → EReal) (ix1 k))
    (fun k => (V c (Pipeline.arrRef spec0 12) : S128x1.Idx → EReal) (ix2 k (0 : Fin 1))) (msgOf V c)

/-- The message block of point t at (r, j) is the message array at (2000 t + r, j). -/
theorem msg_point (c : Dev nD) (t : Fin cfg0.N) (r : Fin 2000) (j : Fin 128) :
    k0_pay1 (k0_pay4 (iblk0 V c 0 t) (iblk0 V c 1 t) (iblk0 V c 2 t) (iblk0 V c 3 t) (iblk0 V c 4 t) (iblk0 V c 5 t) (iblk0 V c 6 t) (iblk0 V c 7 t))
        (k0_pay5 (iblk0 V c 8 t)) (constant (F := Ideal) S2000x128 .f32 0x00000000#32) (iblk0 V c 9 t) (ix2 r j)
      = msgOf V c (ix2 (⟨t.val * 2000 + r.val, by have := tlt t; omega⟩ : Fin 800000) j) := by
  refine (msg_apply _ _ _ _ _ _ _ _ _ _ r j).trans ?_
  rw [wblk4 V c t, wblk5 V c t, wblk6 V c t, wblk7 V c t, wblk8 V c t, wblk9 V c t]
  simp only [blk0 V c t, blk1 V c t, blk2 V c t, blk3 V c t]
  rfl

/-- What point t writes back into the message array is block t of the message array of the entry contents. -/
theorem flushed13 (c : Dev nD) (t : Fin cfg0.N) :
    (dat0 V c).flushed 13 t = ((cfg0.win 13).blk t).view.read (Elt Ideal) (msgOf V c) := by
  show (cfg0.win 13).cut (grid0.coords t) ((dat0 V c).after 13 t) = _
  rw [after0_13]
  unfold out0_13
  rw [View.canon_unit_zero hz2]
  simp only [View.ld_unit_zero (S := S2000x128) hz2, View.ld_unit_zero (S := S2000x3) hz2, View.ld_unit_zero (S := S128x128) hz2,
    View.ld_unit_zero (S := S1x128) hz2, View.ld_unit_zero (S := S128) hz1]
  obtain ⟨-, -, -, -, ⟨e0, e1⟩, -⟩ := idx_facts t
  funext y
  obtain ⟨r, j, rfl⟩ : ∃ (r : Fin 2000) (j : Fin 128), y = ix2 r j := ⟨y 0, y 1, eq_ix2 y⟩
  show _ = msgOf V c (((cfg0.win 13).blk t).view.emb (ix2 r j))
  refine (msg_point V c t r j).trans (congrArg (msgOf V c) (funext fun a => Fin.ext ?_))
  match a with
  | ⟨0, _⟩ => show t.val * 2000 + r.val = win0_13.index t (0 : Fin 2) * 2000 + 1 * r.val; rw [e0]; omega
  | ⟨1, _⟩ => show j.val = win0_13.index t (1 : Fin 2) * 128 + 1 * j.val; rw [e1]; omega

/-- An index of the message array is in point t's block iff each coordinate is in the block's range. -/
theorem mem_blk13 (t : Fin cfg0.N) (i : S800000x128.Idx) :
    i ∈ ((cfg0.win 13).blk t).view.set ↔ ∀ a : Fin 2, win0_13.index t a * S2000x128.size a ≤ (i a).val ∧ (i a).val < win0_13.index t a * S2000x128.size a + S2000x128.size a := by
  show i ∈ ((View.whole main_v35_0).slice (win0_13.rect t)).set ↔ _
  rw [View.set_slice_whole, Rect.mem_set_unit]
  exact Iff.rfl

/-- Row e lies in the block of point e / 2000. -/
theorem cover13 (i : S800000x128.Idx) : ∃ t : Fin cfg0.N, (cfg0.win 13).flush t = true ∧ i ∈ ((cfg0.win 13).blk t).view.set := by
  have hi0 : (i 0).val < 800000 := (i 0).isLt
  have hi1 : (i 1).val < 128 := (i 1).isLt
  have hN : cfg0.N = 400 := N_0
  have hq : (i 0).val / 2000 < cfg0.N := by omega
  obtain ⟨-, -, -, -, ⟨e0, e1⟩, -⟩ := idx_facts ⟨(i 0).val / 2000, hq⟩
  refine ⟨⟨(i 0).val / 2000, hq⟩, flush0_13 _, ?_⟩
  rw [mem_blk13]
  intro a
  match a with
  | ⟨0, _⟩ =>
    show win0_13.index ⟨(i 0).val / 2000, hq⟩ (0 : Fin 2) * 2000 ≤ (i 0).val ∧ (i 0).val < win0_13.index ⟨(i 0).val / 2000, hq⟩ (0 : Fin 2) * 2000 + 2000
    rw [e0]
    show (i 0).val / 2000 * 2000 ≤ (i 0).val ∧ (i 0).val < (i 0).val / 2000 * 2000 + 2000
    omega
  | ⟨1, _⟩ =>
    show win0_13.index ⟨(i 0).val / 2000, hq⟩ (1 : Fin 2) * 128 ≤ (i 1).val ∧ (i 1).val < win0_13.index ⟨(i 0).val / 2000, hq⟩ (1 : Fin 2) * 128 + 128
    rw [e1]
    omega

/-- THE MESSAGE ARRAY after the region: the message array of the entry contents. -/
theorem final13 (c : Dev nD) : (dat0 V c).arrAt 13 cfg0.N = msgOf V c :=
  (dat0 V c).arrAt_eq_of_cover 13 (msgOf V c) (fun t _ => flushed13 V c t) cover13

/-- The shift block of point t at (r, d) is the shift array at (2000 t + r, d). -/
theorem shift_point (c : Dev nD) (t : Fin cfg0.N) (r : Fin 2000) (d : Fin 3) :
    k0_pay2 (k0_pay3 (iblk0 V c 2 t) (iblk0 V c 3 t))
        (k0_pay4 (iblk0 V c 0 t) (iblk0 V c 1 t) (iblk0 V c 2 t) (iblk0 V c 3 t) (iblk0 V c 4 t) (iblk0 V c 5 t) (iblk0 V c 6 t) (iblk0 V c 7 t))
        (k0_pay5 (iblk0 V c 8 t)) (constant (F := Ideal) S2000x128 .f32 0x00000000#32) (iblk0 V c 9 t)
        (iblk0 V c 10 t) (iblk0 V c 11 t) (iblk0 V c 12 t) (ix2 r d)
      = shiftArrOf V c (ix2 (⟨t.val * 2000 + r.val, by have := tlt t; omega⟩ : Fin 800000) d) := by
  refine (shift_apply _ _ _ _ _ _ _ _ r d).trans ?_
  rw [diff_apply]
  simp only [msg_point V c t r]
  rw [wblk10 V c t, wblk11 V c t, wblk12 V c t, blk2 V c t, blk3 V c t]
  rfl

/-- What point t writes back into the shift array is block t of the shift array of the entry contents. -/
theorem flushed14 (c : Dev nD) (t : Fin cfg0.N) :
    (dat0 V c).flushed 14 t = ((cfg0.win 14).blk t).view.read (Elt Ideal) (shiftArrOf V c) := by
  show (cfg0.win 14).cut (grid0.coords t) ((dat0 V c).after 14 t) = _
  rw [after0_14]
  unfold out0_14
  rw [View.canon_unit_zero hz2]
  simp only [View.ld_unit_zero (S := S2000x128) hz2, View.ld_unit_zero (S := S2000x3) hz2, View.ld_unit_zero (S := S128x128) hz2,
    View.ld_unit_zero (S := S1x128) hz2, View.ld_unit_zero (S := S128) hz1, View.ld_unit_zero (S := S128x1) hz2]
  obtain ⟨-, -, -, -, -, e0, e1⟩ := idx_facts t
  funext y
  obtain ⟨r, d, rfl⟩ : ∃ (r : Fin 2000) (d : Fin 3), y = ix2 r d := ⟨y 0, y 1, eq_ix2 y⟩
  show _ = shiftArrOf V c (((cfg0.win 14).blk t).view.emb (ix2 r d))
  refine (shift_point V c t r d).trans (congrArg (shiftArrOf V c) (funext fun a => Fin.ext ?_))
  match a with
  | ⟨0, _⟩ => show t.val * 2000 + r.val = win0_14.index t (0 : Fin 2) * 2000 + 1 * r.val; rw [e0]; omega
  | ⟨1, _⟩ => show d.val = win0_14.index t (1 : Fin 2) * 3 + 1 * d.val; rw [e1]; omega

theorem mem_blk14 (t : Fin cfg0.N) (i : S800000x3.Idx) :
    i ∈ ((cfg0.win 14).blk t).view.set ↔ ∀ a : Fin 2, win0_14.index t a * S2000x3.size a ≤ (i a).val ∧ (i a).val < win0_14.index t a * S2000x3.size a + S2000x3.size a := by
  show i ∈ ((View.whole main_v35_1).slice (win0_14.rect t)).set ↔ _
  rw [View.set_slice_whole, Rect.mem_set_unit]
  exact Iff.rfl

theorem cover14 (i : S800000x3.Idx) : ∃ t : Fin cfg0.N, (cfg0.win 14).flush t = true ∧ i ∈ ((cfg0.win 14).blk t).view.set := by
  have hi0 : (i 0).val < 800000 := (i 0).isLt
  have hi1 : (i 1).val < 3 := (i 1).isLt
  have hN : cfg0.N = 400 := N_0
  have hq : (i 0).val / 2000 < cfg0.N := by omega
  obtain ⟨-, -, -, -, -, e0, e1⟩ := idx_facts ⟨(i 0).val / 2000, hq⟩
  refine ⟨⟨(i 0).val / 2000, hq⟩, flush0_14 _, ?_⟩
  rw [mem_blk14]
  intro a
  match a with
  | ⟨0, _⟩ =>
    show win0_14.index ⟨(i 0).val / 2000, hq⟩ (0 : Fin 2) * 2000 ≤ (i 0).val ∧ (i 0).val < win0_14.index ⟨(i 0).val / 2000, hq⟩ (0 : Fin 2) * 2000 + 2000
    rw [e0]
    show (i 0).val / 2000 * 2000 ≤ (i 0).val ∧ (i 0).val < (i 0).val / 2000 * 2000 + 2000
    omega
  | ⟨1, _⟩ =>
    show win0_14.index ⟨(i 0).val / 2000, hq⟩ (1 : Fin 2) * 3 ≤ (i 1).val ∧ (i 1).val < win0_14.index ⟨(i 0).val / 2000, hq⟩ (1 : Fin 2) * 3 + 3
    rw [e1]
    omega

/-- THE SHIFT ARRAY after the region: the shift array of the entry contents. -/
theorem final14 (c : Dev nD) : (dat0 V c).arrAt 14 cfg0.N = shiftArrOf V c :=
  (dat0 V c).arrAt_eq_of_cover 14 (shiftArrOf V c) (fun t _ => flushed14 V c t) cover14

end Cert.KernelIdeal.EdgeBlocks

end
-- ==== Proof.NodeBlocks.lean ====
/-
  The node kernel's two output arrays after its grid of 25 points, as functions of the arrays the kernel finds on entry.
  Point t stages rows 2000·t … 2000·t + 1999 of the node features, of the aggregated messages, of the coordinates and of
  the aggregated shifts, and the whole of each weight array; it writes back the same rows of the two outputs. The 25 row
  blocks cover each output, so the feature output holds at (n, j) the residual node update of row n and the coordinate
  output is the sum of the coordinates and the aggregated shifts.
-/
import proofs.«124007_j7275674599753_1_alg».proof.Proof.Gen.KernelIdeal.Frame
import proofs.«124007_j7275674599753_1_alg».proof.Proof.Bodies
import proofs.«124007_j7275674599753_1_alg».proof.Proof.Arrays
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.NodeBlocks

open Cert.KernelIdeal Cert.KernelIdeal.Gen Cert.KernelIdeal.Bodies

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the per-node windows and the two outputs move one row block per point. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_9.index t (0 : Fin 2) = t.val ∧ win1_9.index t (1 : Fin 2) = 0)
    ∧ (win1_10.index t (0 : Fin 2) = t.val ∧ win1_10.index t (1 : Fin 2) = 0) :=
  (by decide +kernel : ∀ t : Fin grid1.N, _)

/-- The weight windows stay at block 0. -/
theorem idx_weights : ∀ t : Fin cfg1.N,
    (win1_4.index t (0 : Fin 2) = 0 ∧ win1_4.index t (1 : Fin 2) = 0)
    ∧ (win1_5.index t (0 : Fin 2) = 0 ∧ win1_5.index t (1 : Fin 2) = 0)
    ∧ win1_6.index t (0 : Fin 1) = 0
    ∧ (win1_7.index t (0 : Fin 2) = 0 ∧ win1_7.index t (1 : Fin 2) = 0)
    ∧ win1_8.index t (0 : Fin 1) = 0 :=
  (by decide +kernel : ∀ t : Fin grid1.N, _)

theorem tlt (t : Fin cfg1.N) : t.val < 25 := by
  have h := t.isLt
  have hN : cfg1.N = 25 := N_1
  omega

/-! ## Each input window's block at point t, as entries of its array -/

theorem blk0 (c : Dev nD) (t : Fin cfg1.N) (r : Fin 2000) (l : Fin 128) :
    (iblk1 V c 0 t : Vec Ideal S2000x128 .f32) (ix2 r l)
      = (V c (Pipeline.arrRef spec1 0) : S50000x128.Idx → EReal) (ix2 (⟨t.val * 2000 + r.val, by have := tlt t; omega⟩ : Fin 50000) l) := by
  obtain ⟨⟨e0, e1⟩, -⟩ := idx_facts t
  show V c (Pipeline.arrRef spec1 0) (((cfg1.win 0).blk t).view.emb (ix2 r l)) = _
  refine congrArg _ (funext fun a => Fin.ext ?_)
  match a with
  | ⟨0, _⟩ => show win1_0.index t (0 : Fin 2) * 2000 + 1 * r.val = t.val * 2000 + r.val; rw [e0]; omega
  | ⟨1, _⟩ => show win1_0.index t (1 : Fin 2) * 128 + 1 * l.val = l.val; rw [e1]; omega

theorem blk1 (c : Dev nD) (t : Fin cfg1.N) (r : Fin 2000) (l : Fin 128) :
    (iblk1 V c 1 t : Vec Ideal S2000x128 .f32) (ix2 r l)
      = (V c (Pipeline.arrRef spec1 1) : S50000x128.Idx → EReal) (ix2 (⟨t.val * 2000 + r.val, by have := tlt t; omega⟩ : Fin 50000) l) := by
  obtain ⟨-, ⟨e0, e1⟩, -⟩ := idx_facts t
  show V c (Pipeline.arrRef spec1 1) (((cfg1.win 1).blk t).view.emb (ix2 r l)) = _
  refine congrArg _ (funext fun a => Fin.ext ?_)
  match a with
  | ⟨0, _⟩ => show win1_1.index t (0 : Fin 2) * 2000 + 1 * r.val = t.val * 2000 + r.val; rw [e0]; omega
  | ⟨1, _⟩ => show win1_1.index t (1 : Fin 2) * 128 + 1 * l.val = l.val; rw [e1]; omega

theorem blk2 (c : Dev nD) (t : Fin cfg1.N) (r : Fin 2000) (l : Fin 3) :
    (iblk1 V c 2 t : Vec Ideal S2000x3 .f32) (ix2 r l)
      = (V c (Pipeline.arrRef spec1 2) : S50000x3.Idx → EReal) (ix2 (⟨t.val * 2000 + r.val, by have := tlt t; omega⟩ : Fin 50000) l) := by
  obtain ⟨-, -, ⟨e0, e1⟩, -⟩ := idx_facts t
  show V c (Pipeline.arrRef spec1 2) (((cfg1.win 2).blk t).view.emb (ix2 r l)) = _
  refine congrArg _ (funext fun a => Fin.ext ?_)
  match a with
  | ⟨0, _⟩ => show win1_2.index t (0 : Fin 2) * 2000 + 1 * r.val = t.val * 2000 + r.val; rw [e0]; omega
  | ⟨1, _⟩ => show win1_2.index t (1 : Fin 2) * 3 + 1 * l.val = l.val; rw [e1]; omega

theorem blk3 (c : Dev nD) (t : Fin cfg1.N) (r : Fin 2000) (l : Fin 3) :
    (iblk1 V c 3 t : Vec Ideal S2000x3 .f32) (ix2 r l)
      = (V c (Pipeline.arrRef spec1 3) : S50000x3.Idx → EReal) (ix2 (⟨t.val * 2000 + r.val, by have := tlt t; omega⟩ : Fin 50000) l) := by
  obtain ⟨-, -, -, ⟨e0, e1⟩, -⟩ := idx_facts t
  show V c (Pipeline.arrRef spec1 3) (((cfg1.win 3).blk t).view.emb (ix2 r l)) = _
  refine congrArg _ (funext fun a => Fin.ext ?_)
  match a with
  | ⟨0, _⟩ => show win1_3.index t (0 : Fin 2) * 2000 + 1 * r.val = t.val * 2000 + r.val; rw [e0]; omega
  | ⟨1, _⟩ => show win1_3.index t (1 : Fin 2) * 3 + 1 * l.val = l.val; rw [e1]; omega

/-- A weight window's block is its whole array. -/
theorem wblk4 (c : Dev nD) (t : Fin cfg1.N) : (iblk1 V c 4 t : Vec Ideal S128x128 .f32) = V c (Pipeline.arrRef spec1 4) := by
  obtain ⟨⟨e0, e1⟩, -⟩ := idx_weights t
  funext y
  show V c (Pipeline.arrRef spec1 4) (((cfg1.win 4).blk t).view.emb y) = _
  refine congrArg _ (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

theorem wblk5 (c : Dev nD) (t : Fin cfg1.N) : (iblk1 V c 5 t : Vec Ideal S128x128 .f32) = V c (Pipeline.arrRef spec1 5) := by
  obtain ⟨-, ⟨e0, e1⟩, -⟩ := idx_weights t
  funext y
  show V c (Pipeline.arrRef spec1 5) (((cfg1.win 5).blk t).view.emb y) = _
  refine congrArg _ (funext fun a => Fin.ext ?_)
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

theorem wblk6 (c : Dev nD) (t : Fin cfg1.N) : (iblk1 V c 6 t : Vec Ideal S128 .f32) = V c (Pipeline.arrRef spec1 6) := by
  obtain ⟨-, -, e0, -⟩ := idx_weights t
  funext y
  show V c (Pipeline.arrRef spec1 6) (((cfg1.win 6).blk t).view.emb y) = _
  refine congrArg _ (funext fun a => Fin.ext ?_)
  match a with
  | ⟨0, _⟩ => show win1_6.index t (0 : Fin 1) * 128 + 1 * (y 0).val = (y 0).val; rw [e0]; omega

theorem wblk7 (c : Dev nD) (t : Fin cfg1.N) : (iblk1 V c 7 t : Vec Ideal S128x128 .f32) = V c (Pipeline.arrRef spec1 7) := by
  obtain ⟨-, -, -, ⟨e0, e1⟩, -⟩ := idx_weights t
  funext y
  show V c (Pipeline.arrRef spec1 7) (((cfg1.win 7).blk t).view.emb y) = _
  refine congrArg _ (funext fun a => Fin.ext ?_)
  match a with
  | ⟨0, _⟩ => show win1_7.index t (0 : Fin 2) * 128 + 1 * (y 0).val = (y 0).val; rw [e0]; omega
  | ⟨1, _⟩ => show win1_7.index t (1 : Fin 2) * 128 + 1 * (y 1).val = (y 1).val; rw [e1]; omega

theorem wblk8 (c : Dev nD) (t : Fin cfg1.N) : (iblk1 V c 8 t : Vec Ideal S128 .f32) = V c (Pipeline.arrRef spec1 8) := by
  obtain ⟨-, -, -, -, e0⟩ := idx_weights t
  funext y
  show V c (Pipeline.arrRef spec1 8) (((cfg1.win 8).blk t).view.emb y) = _
  refine congrArg _ (funext fun a => Fin.ext ?_)
  match a with
  | ⟨0, _⟩ => show win1_8.index t (0 : Fin 1) * 128 + 1 * (y 0).val = (y 0).val; rw [e0]; omega

/-- The updated features of the arrays the region finds. -/
abbrev nodeOf (c : Dev nD) : S50000x128.Idx → EReal :=
  Cert.Layer.nodeArr (V c (Pipeline.arrRef spec1 0)) (V c (Pipeline.arrRef spec1 1))
    (fun l k => (V c (Pipeline.arrRef spec1 4) : S128x128.Idx → EReal) (ix2 l k)) (fun l k => (V c (Pipeline.arrRef spec1 5) : S128x128.Idx → EReal) (ix2 l k))
    (fun k => (V c (Pipeline.arrRef spec1 6) : S128.Idx → EReal) (ix1 k)) (fun k j => (V c (Pipeline.arrRef spec1 7) : S128x128.Idx → EReal) (ix2 k j))
    (fun j => (V c (Pipeline.arrRef spec1 8) : S128.Idx → EReal) (ix1 j))

/-- The updated coordinates of the arrays the region finds. -/
abbrev xOf (c : Dev nD) : S50000x3.Idx → EReal := Cert.Layer.xArr (V c (Pipeline.arrRef spec1 2)) (V c (Pipeline.arrRef spec1 3))

/-- The feature block of point t at (r, j) is the updated feature array at (2000 t + r, j). -/
theorem node_point (c : Dev nD) (t : Fin cfg1.N) (r : Fin 2000) (j : Fin 128) :
    k1_pay1 (iblk1 V c 0 t) (iblk1 V c 1 t) (iblk1 V c 4 t) (iblk1 V c 5 t) (iblk1 V c 6 t) (iblk1 V c 7 t) (iblk1 V c 8 t) (ix2 r j)
      = nodeOf V c (ix2 (⟨t.val * 2000 + r.val, by have := tlt t; omega⟩ : Fin 50000) j) := by
  refine (node_apply _ _ _ _ _ _ _ r j).trans ?_
  rw [wblk4 V c t, wblk5 V c t, wblk6 V c t, wblk7 V c t, wblk8 V c t]
  simp only [blk0 V c t, blk1 V c t]
  rfl

/-- What point t writes back into the feature output is block t of the updated feature array. -/
theorem flushed9 (c : Dev nD) (t : Fin cfg1.N) :
    (dat1 V c).flushed 9 t = ((cfg1.win 9).blk t).view.read (Elt Ideal) (nodeOf V c) := by
  show (cfg1.win 9).cut (grid1.coords t) ((dat1 V c).after 9 t) = _
  rw [after1_9]
  unfold out1_9
  rw [View.canon_unit_zero hz2]
  simp only [View.ld_unit_zero (S := S2000x128) hz2, View.ld_unit_zero (S := S128x128) hz2, View.ld_unit_zero (S := S128) hz1]
  obtain ⟨-, -, -, -, ⟨e0, e1⟩, -⟩ := idx_facts t
  funext y
  obtain ⟨r, j, rfl⟩ : ∃ (r : Fin 2000) (j : Fin 128), y = ix2 r j := ⟨y 0, y 1, eq_ix2 y⟩
  show _ = nodeOf V c (((cfg1.win 9).blk t).view.emb (ix2 r j))
  refine (node_point V c t r j).trans (congrArg (nodeOf V c) (funext fun a => Fin.ext ?_))
  match a with
  | ⟨0, _⟩ => show t.val * 2000 + r.val = win1_9.index t (0 : Fin 2) * 2000 + 1 * r.val; rw [e0]; omega
  | ⟨1, _⟩ => show j.val = win1_9.index t (1 : Fin 2) * 128 + 1 * j.val; rw [e1]; omega

theorem mem_blk9 (t : Fin cfg1.N) (i : S50000x128.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v44_0).slice (win1_9.rect t)).set ↔ _
  rw [View.set_slice_whole, Rect.mem_set_unit]
  exact Iff.rfl

/-- Row n lies in the block of point n / 2000. -/
theorem cover9 (i : S50000x128.Idx) : ∃ t : Fin cfg1.N, (cfg1.win 9).flush t = true ∧ i ∈ ((cfg1.win 9).blk t).view.set := by
  have hi0 : (i 0).val < 50000 := (i 0).isLt
  have hi1 : (i 1).val < 128 := (i 1).isLt
  have hN : cfg1.N = 25 := N_1
  have hq : (i 0).val / 2000 < cfg1.N := by omega
  obtain ⟨-, -, -, -, ⟨e0, e1⟩, -⟩ := idx_facts ⟨(i 0).val / 2000, hq⟩
  refine ⟨⟨(i 0).val / 2000, hq⟩, flush1_9 _, ?_⟩
  rw [mem_blk9]
  intro a
  match a with
  | ⟨0, _⟩ =>
    show win1_9.index ⟨(i 0).val / 2000, hq⟩ (0 : Fin 2) * 2000 ≤ (i 0).val ∧ (i 0).val < win1_9.index ⟨(i 0).val / 2000, hq⟩ (0 : Fin 2) * 2000 + 2000
    rw [e0]
    show (i 0).val / 2000 * 2000 ≤ (i 0).val ∧ (i 0).val < (i 0).val / 2000 * 2000 + 2000
    omega
  | ⟨1, _⟩ =>
    show win1_9.index ⟨(i 0).val / 2000, hq⟩ (1 : Fin 2) * 128 ≤ (i 1).val ∧ (i 1).val < win1_9.index ⟨(i 0).val / 2000, hq⟩ (1 : Fin 2) * 128 + 128
    rw [e1]
    omega

/-- THE FEATURE OUTPUT after the region. -/
theorem final9 (c : Dev nD) : (dat1 V c).arrAt 9 cfg1.N = nodeOf V c :=
  (dat1 V c).arrAt_eq_of_cover 9 (nodeOf V c) (fun t _ => flushed9 V c t) cover9

/-- The coordinate block of point t at (r, d) is the updated coordinate array at (2000 t + r, d). -/
theorem x_point (c : Dev nD) (t : Fin cfg1.N) (r : Fin 2000) (d : Fin 3) :
    k1_pay2 (iblk1 V c 2 t) (iblk1 V c 3 t) (ix2 r d)
      = xOf V c (ix2 (⟨t.val * 2000 + r.val, by have := tlt t; omega⟩ : Fin 50000) d) := by
  refine (xsum_apply _ _ _).trans ?_
  rw [blk2 V c t, blk3 V c t]
  rfl

/-- What point t writes back into the coordinate output is block t of the updated coordinates. -/
theorem flushed10 (c : Dev nD) (t : Fin cfg1.N) :
    (dat1 V c).flushed 10 t = ((cfg1.win 10).blk t).view.read (Elt Ideal) (xOf V c) := by
  show (cfg1.win 10).cut (grid1.coords t) ((dat1 V c).after 10 t) = _
  rw [after1_10]
  unfold out1_10
  rw [View.canon_unit_zero hz2]
  simp only [View.ld_unit_zero (S := S2000x3) hz2]
  obtain ⟨-, -, -, -, -, e0, e1⟩ := idx_facts t
  funext y
  obtain ⟨r, d, rfl⟩ : ∃ (r : Fin 2000) (d : Fin 3), y = ix2 r d := ⟨y 0, y 1, eq_ix2 y⟩
  show _ = xOf V c (((cfg1.win 10).blk t).view.emb (ix2 r d))
  refine (x_point V c t r d).trans (congrArg (xOf V c) (funext fun a => Fin.ext ?_))
  match a with
  | ⟨0, _⟩ => show t.val * 2000 + r.val = win1_10.index t (0 : Fin 2) * 2000 + 1 * r.val; rw [e0]; omega
  | ⟨1, _⟩ => show d.val = win1_10.index t (1 : Fin 2) * 3 + 1 * d.val; rw [e1]; omega

theorem mem_blk10 (t : Fin cfg1.N) (i : S50000x3.Idx) :
    i ∈ ((cfg1.win 10).blk t).view.set ↔ ∀ a : Fin 2, win1_10.index t a * S2000x3.size a ≤ (i a).val ∧ (i a).val < win1_10.index t a * S2000x3.size a + S2000x3.size a := by
  show i ∈ ((View.whole main_v44_1).slice (win1_10.rect t)).set ↔ _
  rw [View.set_slice_whole, Rect.mem_set_unit]
  exact Iff.rfl

theorem cover10 (i : S50000x3.Idx) : ∃ t : Fin cfg1.N, (cfg1.win 10).flush t = true ∧ i ∈ ((cfg1.win 10).blk t).view.set := by
  have hi0 : (i 0).val < 50000 := (i 0).isLt
  have hi1 : (i 1).val < 3 := (i 1).isLt
  have hN : cfg1.N = 25 := N_1
  have hq : (i 0).val / 2000 < cfg1.N := by omega
  obtain ⟨-, -, -, -, -, e0, e1⟩ := idx_facts ⟨(i 0).val / 2000, hq⟩
  refine ⟨⟨(i 0).val / 2000, hq⟩, flush1_10 _, ?_⟩
  rw [mem_blk10]
  intro a
  match a with
  | ⟨0, _⟩ =>
    show win1_10.index ⟨(i 0).val / 2000, hq⟩ (0 : Fin 2) * 2000 ≤ (i 0).val ∧ (i 0).val < win1_10.index ⟨(i 0).val / 2000, hq⟩ (0 : Fin 2) * 2000 + 2000
    rw [e0]
    show (i 0).val / 2000 * 2000 ≤ (i 0).val ∧ (i 0).val < (i 0).val / 2000 * 2000 + 2000
    omega
  | ⟨1, _⟩ =>
    show win1_10.index ⟨(i 0).val / 2000, hq⟩ (1 : Fin 2) * 3 ≤ (i 1).val ∧ (i 1).val < win1_10.index ⟨(i 0).val / 2000, hq⟩ (1 : Fin 2) * 3 + 3
    rw [e1]
    omega

/-- THE COORDINATE OUTPUT after the region. -/
theorem final10 (c : Dev nD) : (dat1 V c).arrAt 10 cfg1.N = xOf V c :=
  (dat1 V c).arrAt_eq_of_cover 10 (xOf V c) (fun t _ => flushed10 V c t) cover10

end Cert.KernelIdeal.NodeBlocks

end
-- ==== Proof.Composite.lean ====
/-
  The layer's two results as functions of the fourteen argument arrays, composed from the stages both programs share:
  the gathers of node features and coordinates by the two rows of the edge list, the message and shift arrays of the
  gathered rows, the scatter-additions of messages and shifts into zero arrays by the raw first row of the edge list,
  and the node update. The weights of the first layers are row ranges of the argument matrices.
-/
import proofs.«124007_j7275674599753_1_alg».proof.Proof.Gen.ReferenceIdeal.Read
import proofs.«124007_j7275674599753_1_alg».proof.Proof.Arrays

noncomputable section

namespace Cert.ReferenceIdeal.Composite

open Cert.ReferenceIdeal Cert.ReferenceIdeal.Gen Cert.ReferenceIdeal.Read Idealize.ShloMosaic Idealize.ShloMosaic.ValueIdx

variable (x0 : (⟨S50000x128, .f32⟩ : BufTy).Contents (Elt Ideal)) (x1 : (⟨S50000x3, .f32⟩ : BufTy).Contents (Elt Ideal)) (x2 : (⟨S2x800000, .i32⟩ : BufTy).Contents (Elt Ideal))
  (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal)) (x9 : (⟨S128x1, .f32⟩ : BufTy).Contents (Elt Ideal))
  (x10 : (⟨S256x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal))

/-- The message array: the layer's message of the gathered rows, the first layer's three weight blocks being rows
    0–127, 128–255 and 256 of the 257-row matrix. -/
def msgA : S800000x128.Idx → EReal :=
  Cert.Layer.msgArr (val_main_v28 (F := Ideal) x0 x2) (val_main_v35 (F := Ideal) x0 x2) (val_main_v10 (F := Ideal) x1 x2) (val_main_v17 (F := Ideal) x1 x2)
    (fun l k => x3 (ix2 (⟨l.val, by omega⟩ : Fin 257) k)) (fun l k => x3 (ix2 (⟨128 + l.val, by omega⟩ : Fin 257) k))
    (fun k => x3 (ix2 (⟨256, by omega⟩ : Fin 257) k)) (fun k => x4 (ix1 k)) (fun k j => x5 (ix2 k j)) (fun j => x6 (ix1 j))

/-- The shift array of the gathered coordinates and the message array. -/
def shiftA : S800000x3.Idx → EReal :=
  Cert.Layer.shiftArr (val_main_v10 (F := Ideal) x1 x2) (val_main_v17 (F := Ideal) x1 x2)
    (fun j k => x7 (ix2 j k)) (fun k => x8 (ix1 k)) (fun k => x9 (ix2 k (0 : Fin 1))) (msgA x0 x1 x2 x3 x4 x5 x6)

/-- The messages added into a zero array at the rows named by the raw first row of the edge list. -/
def aggH : S50000x128.Idx → EReal :=
  Host.scatterAdd (F := Ideal) (φ := .f32) scatter_S50000x128_S800000x1_S800000x128_1_0_0_1 (val_main_v63 (F := Ideal))
    (broadcastInDim S800000x1 ![0] bcast_S800000_S800000x1_0 (val_main_v1 (F := Ideal) x2)) (msgA x0 x1 x2 x3 x4 x5 x6)

/-- The shifts added into a zero array at the rows named by the raw first row of the edge list. -/
def aggX : S50000x3.Idx → EReal :=
  Host.scatterAdd (F := Ideal) (φ := .f32) scatter_S50000x3_S800000x1_S800000x3_1_0_0_1 (val_main_v54 (F := Ideal))
    (broadcastInDim S800000x1 ![0] bcast_S800000_S800000x1_0 (val_main_v1 (F := Ideal) x2)) (shiftA x0 x1 x2 x3 x4 x5 x6 x7 x8 x9)

/-- The updated features: the node network's two first-layer weight blocks are rows 0–127 and 128–255 of the 256-row matrix. -/
def outH : S50000x128.Idx → EReal :=
  Cert.Layer.nodeArr x0 (aggH x0 x1 x2 x3 x4 x5 x6)
    (fun l k => x10 (ix2 (⟨l.val, by omega⟩ : Fin 256) k)) (fun l k => x10 (ix2 (⟨128 + l.val, by omega⟩ : Fin 256) k))
    (fun k => x11 (ix1 k)) (fun k j => x12 (ix2 k j)) (fun j => x13 (ix1 j))

/-- The updated coordinates. -/
def outX : S50000x3.Idx → EReal := Cert.Layer.xArr x1 (aggX x0 x1 x2 x3 x4 x5 x6 x7 x8 x9)

end Cert.ReferenceIdeal.Composite

end
-- ==== Proof.KernelWhole.lean ====
/-
  The kernel program's two result arrays as functions of its fourteen argument arrays.
  The host operations before the first region leave, in the arrays its windows read, the four gathers of features and
  coordinates by the edge list's rows and the three row ranges of the first weight matrix; the first region leaves the
  message and shift arrays of those; the host operations between the regions add them into zero arrays at the rows named
  by the raw first row of the edge list and cut the node network's first weight matrix in two; the second region leaves
  the node update. Composed, the results are the layer's two results.
-/
import proofs.«124007_j7275674599753_1_alg».proof.Proof.Gen.KernelIdeal.Frame
import proofs.«124007_j7275674599753_1_alg».proof.Proof.EdgeBlocks
import proofs.«124007_j7275674599753_1_alg».proof.Proof.NodeBlocks
import proofs.«124007_j7275674599753_1_alg».proof.Proof.Composite
import Idealize.ShloMosaic.Lib.StableHlo.Run
import Idealize.ShloMosaic.Lib.ValueLayout

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read (val_main_v1 val_main_v10 val_main_v17 val_main_v28 val_main_v35 val_main_v54 val_main_v63)

variable (m : (ℓ : Loc nD τ sig) → Buf (Elt Ideal) ℓ) (ρ : Dev nD → PrngReg)

/-! ## What the first region finds -/

/-- Window 0: the features gathered by the (normalised) first row of the edge list. -/
theorem entry0_0 (c : Dev nD) : (V1 m ρ c (Pipeline.arrRef spec0 0) : S800000x128.Idx → EReal)
    = val_main_v28 (F := Ideal) (m ((c.tc : Thread nD τ).loc main_arg0)) (m ((c.tc : Thread nD τ).loc main_arg2)) := by
  show StableHlo.after hostOps0 (W0 m ρ c) (Proc.devRef .tc main_v10) = _
  after_results
  rfl

set_option maxHeartbeats 4000000 in
/-- Window 1: the features gathered by the second row. -/
theorem entry0_1 (c : Dev nD) : (V1 m ρ c (Pipeline.arrRef spec0 1) : S800000x128.Idx → EReal)
    = val_main_v35 (F := Ideal) (m ((c.tc : Thread nD τ).loc main_arg0)) (m ((c.tc : Thread nD τ).loc main_arg2)) := by
  show StableHlo.after hostOps0 (W0 m ρ c) (Proc.devRef .tc main_v17) = _
  after_results
  rfl

set_option maxHeartbeats 4000000 in
/-- Window 2: the coordinates gathered by the first row. -/
theorem entry0_2 (c : Dev nD) : (V1 m ρ c (Pipeline.arrRef spec0 2) : S800000x3.Idx → EReal)
    = val_main_v10 (F := Ideal) (m ((c.tc : Thread nD τ).loc main_arg1)) (m ((c.tc : Thread nD τ).loc main_arg2)) := by
  show StableHlo.after hostOps0 (W0 m ρ c) (Proc.devRef .tc main_v24) = _
  after_results
  rfl

set_option maxHeartbeats 4000000 in
/-- Window 3: the coordinates gathered by the second row. -/
theorem entry0_3 (c : Dev nD) : (V1 m ρ c (Pipeline.arrRef spec0 3) : S800000x3.Idx → EReal)
    = val_main_v17 (F := Ideal) (m ((c.tc : Thread nD τ).loc main_arg1)) (m ((c.tc : Thread nD τ).loc main_arg2)) := by
  show StableHlo.after hostOps0 (W0 m ρ c) (Proc.devRef .tc main_v31) = _
  after_results
  rfl

/-- Windows 4, 5, 6: rows 0–127, 128–255 and 256 of the first weight matrix. -/
theorem entry0_4 (c : Dev nD) (l k : Fin 128) : (V1 m ρ c (Pipeline.arrRef spec0 4) : S128x128.Idx → EReal) (ix2 l k)
    = ((m ((c.tc : Thread nD τ).loc main_arg3)) : S257x128.Idx → EReal) (ix2 (⟨l.val, by omega⟩ : Fin 257) k) := by
  show StableHlo.after hostOps0 (W0 m ρ c) (Proc.devRef .tc main_v32) (ix2 l k) = _
  after_results
  exact slice2_axis0_apply 0 _ slices_S257x128_S128x128_0_0 l k _ (Nat.zero_add _).symm

theorem entry0_5 (c : Dev nD) (l k : Fin 128) : (V1 m ρ c (Pipeline.arrRef spec0 5) : S128x128.Idx → EReal) (ix2 l k)
    = ((m ((c.tc : Thread nD τ).loc main_arg3)) : S257x128.Idx → EReal) (ix2 (⟨128 + l.val, by omega⟩ : Fin 257) k) := by
  show StableHlo.after hostOps0 (W0 m ρ c) (Proc.devRef .tc main_v33) (ix2 l k) = _
  after_results
  exact slice2_axis0_apply 128 _ slices_S257x128_S128x128_128_0 l k _ rfl

theorem entry0_6 (c : Dev nD) (k : Fin 128) : (V1 m ρ c (Pipeline.arrRef spec0 6) : S1x128.Idx → EReal) (ix2 (0 : Fin 1) k)
    = ((m ((c.tc : Thread nD τ).loc main_arg3)) : S257x128.Idx → EReal) (ix2 (⟨256, by omega⟩ : Fin 257) k) := by
  show StableHlo.after hostOps0 (W0 m ρ c) (Proc.devRef .tc main_v34) (ix2 (0 : Fin 1) k) = _
  after_results
  exact slice2_axis0_apply 256 _ slices_S257x128_S1x128_256_0 (0 : Fin 1) k _ rfl

/-- Windows 7–12: argument arrays, untouched by the host operations. -/
theorem entry0_7 (c : Dev nD) : V1 m ρ c (Pipeline.arrRef spec0 7) = (m ((c.tc : Thread nD τ).loc main_arg4)) := by
  show StableHlo.after hostOps0 (W0 m ρ c) (Proc.devRef .tc main_arg4) = _
  after_results
theorem entry0_8 (c : Dev nD) : V1 m ρ c (Pipeline.arrRef spec0 8) = (m ((c.tc : Thread nD τ).loc main_arg5)) := by
  show StableHlo.after hostOps0 (W0 m ρ c) (Proc.devRef .tc main_arg5) = _
  after_results
theorem entry0_9 (c : Dev nD) : V1 m ρ c (Pipeline.arrRef spec0 9) = (m ((c.tc : Thread nD τ).loc main_arg6)) := by
  show StableHlo.after hostOps0 (W0 m ρ c) (Proc.devRef .tc main_arg6) = _
  after_results
theorem entry0_10 (c : Dev nD) : V1 m ρ c (Pipeline.arrRef spec0 10) = (m ((c.tc : Thread nD τ).loc main_arg7)) := by
  show StableHlo.after hostOps0 (W0 m ρ c) (Proc.devRef .tc main_arg7) = _
  after_results
theorem entry0_11 (c : Dev nD) : V1 m ρ c (Pipeline.arrRef spec0 11) = (m ((c.tc : Thread nD τ).loc main_arg8)) := by
  show StableHlo.after hostOps0 (W0 m ρ c) (Proc.devRef .tc main_arg8) = _
  after_results
theorem entry0_12 (c : Dev nD) : V1 m ρ c (Pipeline.arrRef spec0 12) = (m ((c.tc : Thread nD τ).loc main_arg9)) := by
  show StableHlo.after hostOps0 (W0 m ρ c) (Proc.devRef .tc main_arg9) = _
  after_results

/-- The first region's message array is the layer's message array of the arguments. -/
theorem msg_eq (c : Dev nD) : EdgeBlocks.msgOf (V1 m ρ) c
    = Cert.ReferenceIdeal.Composite.msgA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Cert.ReferenceIdeal.Composite.msgA
  dsimp only [EdgeBlocks.msgOf]
  simp only [entry0_0 m ρ c, entry0_1 m ρ c, entry0_2 m ρ c, entry0_3 m ρ c, entry0_4 m ρ c, entry0_5 m ρ c, entry0_6 m ρ c,
    entry0_7 m ρ c, entry0_8 m ρ c, entry0_9 m ρ c]

/-- The first region's shift array is the layer's shift array of the arguments. -/
theorem shift_eq (c : Dev nD) : EdgeBlocks.shiftArrOf (V1 m ρ) c
    = Cert.ReferenceIdeal.Composite.shiftA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.ReferenceIdeal.Composite.shiftA
  rw [← msg_eq m ρ c]
  dsimp only [EdgeBlocks.shiftArrOf]
  simp only [entry0_2 m ρ c, entry0_3 m ρ c, entry0_10 m ρ c, entry0_11 m ρ c, entry0_12 m ρ c]

/-! ## What the second region finds -/

/-- The raw first row of the edge list, as the host operations between the regions read it. -/
theorem row_eq (c : Dev nD) : (W2 m ρ c (Proc.devRef .tc main_v1) : S800000.Idx → BitVec 32) = val_main_v1 (F := Ideal) (m ((c.tc : Thread nD τ).loc main_arg2)) := by
  rw [W2_of_ne m ρ c main_v1 (by decide)]
  show StableHlo.after hostOps0 (W0 m ρ c) (Proc.devRef .tc main_v1) = _
  after_results
  rfl

/-- Window 1: the messages added into a zero array. -/
theorem entry1_1 (c : Dev nD) : (V3 m ρ c (Pipeline.arrRef spec1 1) : S50000x128.Idx → EReal)
    = Cert.ReferenceIdeal.Composite.aggH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show StableHlo.after hostOps1 (W2 m ρ c) (Proc.devRef .tc main_v38) = _
  after_results
  rw [row_eq m ρ c, show W2 m ρ c (Proc.devRef .tc main_v35_0) = _ from W2_arr m ρ c 13, EdgeBlocks.final13 (V1 m ρ) c, msg_eq m ρ c]
  rfl

/-- Window 3: the shifts added into a zero array. -/
theorem entry1_3 (c : Dev nD) : (V3 m ρ c (Pipeline.arrRef spec1 3) : S50000x3.Idx → EReal)
    = Cert.ReferenceIdeal.Composite.aggX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  show StableHlo.after hostOps1 (W2 m ρ c) (Proc.devRef .tc main_v41) = _
  after_results
  rw [row_eq m ρ c, show W2 m ρ c (Proc.devRef .tc main_v35_1) = _ from W2_arr m ρ c 14, EdgeBlocks.final14 (V1 m ρ) c, shift_eq m ρ c]
  rfl

/-- An argument array is what it was at launch when the second region is entered. -/
theorem arg_at_entry1 (c : Dev nD) (w : Fin cfg1.W) (hin : (cfg1.win w).isOut = false) :
    V3 m ρ c (Pipeline.arrRef spec1 w) = W4 m ρ c (Proc.devRef .tc (Pipeline.arrRef spec1 w)) :=
  ((W4_arr m ρ c w).trans (((dat1 (V3 m ρ) c).arrAt_in w hin _).trans (A_eq1 (V3 m ρ) c w))).symm

theorem entry1_0 (c : Dev nD) : V3 m ρ c (Pipeline.arrRef spec1 0) = (m ((c.tc : Thread nD τ).loc main_arg0)) :=
  (arg_at_entry1 m ρ c 0 rfl).trans (W4_main_arg0 m ρ c)
theorem entry1_2 (c : Dev nD) : V3 m ρ c (Pipeline.arrRef spec1 2) = (m ((c.tc : Thread nD τ).loc main_arg1)) :=
  (arg_at_entry1 m ρ c 2 rfl).trans (W4_main_arg1 m ρ c)
theorem entry1_6 (c : Dev nD) : V3 m ρ c (Pipeline.arrRef spec1 6) = (m ((c.tc : Thread nD τ).loc main_arg11)) :=
  (arg_at_entry1 m ρ c 6 rfl).trans (W4_main_arg11 m ρ c)
theorem entry1_7 (c : Dev nD) : V3 m ρ c (Pipeline.arrRef spec1 7) = (m ((c.tc : Thread nD τ).loc main_arg12)) :=
  (arg_at_entry1 m ρ c 7 rfl).trans (W4_main_arg12 m ρ c)
theorem entry1_8 (c : Dev nD) : V3 m ρ c (Pipeline.arrRef spec1 8) = (m ((c.tc : Thread nD τ).loc main_arg13)) :=
  (arg_at_entry1 m ρ c 8 rfl).trans (W4_main_arg13 m ρ c)

/-- The node network's first weight matrix, as the host operations between the regions read it. -/
theorem w10_eq (c : Dev nD) : W2 m ρ c (Proc.devRef .tc main_arg10) = (m ((c.tc : Thread nD τ).loc main_arg10)) := by
  rw [W2_of_ne m ρ c main_arg10 (by decide)]
  show StableHlo.after hostOps0 (W0 m ρ c) (Proc.devRef .tc main_arg10) = _
  after_results

/-- Windows 4, 5: rows 0–127 and 128–255 of the node network's first weight matrix. -/
theorem entry1_4 (c : Dev nD) (l k : Fin 128) : (V3 m ρ c (Pipeline.arrRef spec1 4) : S128x128.Idx → EReal) (ix2 l k)
    = ((m ((c.tc : Thread nD τ).loc main_arg10)) : S256x128.Idx → EReal) (ix2 (⟨l.val, by omega⟩ : Fin 256) k) := by
  show StableHlo.after hostOps1 (W2 m ρ c) (Proc.devRef .tc main_v42) (ix2 l k) = _
  after_results
  rw [w10_eq m ρ c]
  exact slice2_axis0_apply 0 _ slices_S256x128_S128x128_0_0 l k _ (Nat.zero_add _).symm

theorem entry1_5 (c : Dev nD) (l k : Fin 128) : (V3 m ρ c (Pipeline.arrRef spec1 5) : S128x128.Idx → EReal) (ix2 l k)
    = ((m ((c.tc : Thread nD τ).loc main_arg10)) : S256x128.Idx → EReal) (ix2 (⟨128 + l.val, by omega⟩ : Fin 256) k) := by
  show StableHlo.after hostOps1 (W2 m ρ c) (Proc.devRef .tc main_v43) (ix2 l k) = _
  after_results
  rw [w10_eq m ρ c]
  exact slice2_axis0_apply 128 _ slices_S256x128_S128x128_128_0 l k _ rfl

/-! ## The two results -/

/-- The feature result is the layer's updated features of the arguments. -/
theorem out0_eq (c : Dev nD) : (W4 m ρ c (Proc.devRef .tc main_v44_0) : S50000x128.Idx → EReal)
    = Cert.ReferenceIdeal.Composite.outH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg10)) (m ((c.tc : Thread nD τ).loc main_arg11)) (m ((c.tc : Thread nD τ).loc main_arg12)) (m ((c.tc : Thread nD τ).loc main_arg13)) := by
  rw [show W4 m ρ c (Proc.devRef .tc main_v44_0) = _ from W4_arr m ρ c 9, NodeBlocks.final9 (V3 m ρ) c]
  unfold Cert.ReferenceIdeal.Composite.outH
  dsimp only [NodeBlocks.nodeOf]
  simp only [entry1_0 m ρ c, entry1_1 m ρ c, entry1_4 m ρ c, entry1_5 m ρ c, entry1_6 m ρ c, entry1_7 m ρ c, entry1_8 m ρ c]

/-- The coordinate result is the layer's updated coordinates of the arguments. -/
theorem out1_eq (c : Dev nD) : (W4 m ρ c (Proc.devRef .tc main_v44_1) : S50000x3.Idx → EReal)
    = Cert.ReferenceIdeal.Composite.outX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [show W4 m ρ c (Proc.devRef .tc main_v44_1) = _ from W4_arr m ρ c 10, NodeBlocks.final10 (V3 m ρ) c]
  unfold Cert.ReferenceIdeal.Composite.outX
  dsimp only [NodeBlocks.xOf]
  simp only [entry1_2 m ρ c, entry1_3 m ρ c]

end Cert.KernelIdeal.Whole

end
-- ==== Proof.RowNonneg.lean ====
/-
  The index array's entries are nonnegative, read out of the precondition, and what that says of the reference.

  The precondition is a conjunction, one bit per argument array; its last conjunct is the `and` over all entries of
  the 2 x 800000 index array of the bit "entry ≥ 0, signed". A conjunction that is 1 has every conjunct 1, and an
  `and` over all entries that is 1 met only 1s, so every entry e has 0 ≤ e read as a signed 32-bit integer.

  The reference normalises an index before each of its two scatter-adds: it replaces a row entry e by e + 50000 when
  e < 0 (signed) and keeps e otherwise. For a nonnegative entry the test e < 0 fails, so the normalised row is the
  row itself.
-/
import proofs.«124007_j7275674599753_1_alg».proof.Defs
import proofs.«124007_j7275674599753_1_alg».proof.Proof.Gen.ReferenceIdeal.Read
import proofs.«124007_j7275674599753_1_alg».proof.Proof.Gen.Pre_finite_inputs
import Idealize.ShloMosaic.Lib.ReduceAll

noncomputable section

namespace Cert.Proof.RowNonneg

open Idealize.ShloMosaic Idealize.SL.Sem

/-- Every entry of the index array is nonnegative as a signed 32-bit integer. -/
def Nonneg (x2 : IVec Cert.Pre_finite_inputs.S2x800000 32) : Prop :=
  ∀ i : Cert.Pre_finite_inputs.S2x800000.Idx, 0 ≤ (x2 i).toInt

/-- The rank-0 shape has one index. -/
instance : Subsingleton Cert.Pre_finite_inputs.S_.Idx := ⟨fun a b => funext fun d => d.elim0⟩

/-- The last part of the precondition's chain is 1 only if every entry of the index array is nonnegative: its value is
    (the earlier conjuncts) and (the `and` over all entries of "entry ≥ 0"). -/
theorem nonneg_of_part3 {F : FTy → Type} [FloatOps F] [Cert.Pre_finite_inputs.Facts]
    (a2 : IVec Cert.Pre_finite_inputs.S2x800000 32) (a12 : FVec F Cert.Pre_finite_inputs.S128x128 .f32)
    (a13 : FVec F Cert.Pre_finite_inputs.S128 .f32) (v48 : IVec Cert.Pre_finite_inputs.S_ 1)
    (v49 v50 : FVec F Cert.Pre_finite_inputs.S128 .f32) (j : Cert.Pre_finite_inputs.S_.Idx)
    (h : Cert.Pre_finite_inputs.fn_part3 (F := F) a2 a12 a13 v48 v49 v50 j = 1#1) : Nonneg a2 := by
  dsimp only [Cert.Pre_finite_inputs.fn_part3] at h
  obtain ⟨-, h66⟩ := IntOp.andi_eq_one.1 h
  intro i
  have hi := Host.reduce_andi_all _ _ _ _ j h66 i
  have hge : (0#32 : BitVec 32).toInt ≤ (a2 i).toInt := IntOp.cmpi_sge.1 hi
  exact hge

/-- THE PRECONDITION DECODED: on every device the index array's entries are nonnegative. -/
theorem nonneg_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Nonneg (m ((c.tc : Thread Cert.KernelIdeal.nD Cert.KernelIdeal.τ).loc Cert.KernelIdeal.main_arg2)) := by
  have e := congrFun (h c) (fun a => a.elim0)
  dsimp only [Cert.Pre_finite_inputs.fn, Cert.Pre_finite_inputs.fn_part1, Cert.Pre_finite_inputs.fn_part2] at e
  exact nonneg_of_part3 _ _ _ _ _ _ _ e

/-- A select on the test "e < 0" (signed) keeps a nonnegative e. -/
theorem select_slt_zero {e y : BitVec 32} (h : 0 ≤ e.toInt) :
    Scalar.select (IntOp.cmpi .slt e 0#32) y e = e := by
  have hc : ¬ IntOp.cmpi .slt e 0#32 = 1#1 := fun hc => by
    have hlt := IntOp.cmpi_slt.1 hc
    rw [show (0#32 : BitVec 32).toInt = 0 from by decide] at hlt
    omega
  exact if_neg hc

section Reference

open Cert.ReferenceIdeal.Read

variable {F : FTy → Type} [FloatOps F]

/-- Entry i of row 0 of the index array, as the reference reads it, is an entry of the array: nonnegative. -/
theorem row_nonneg (x2 : IVec Cert.Pre_finite_inputs.S2x800000 32) (h : Nonneg x2) (i : Cert.ReferenceIdeal.S800000.Idx) :
    0 ≤ (val_main_v1 (F := F) x2 i).toInt := by
  rw [val_main_v1_apply, val_main_v0_apply]
  exact h _

/-- The row normalised for the first scatter-add is the row: no entry is negative, so none is shifted by 50000. -/
theorem v59_eq (x2 : IVec Cert.Pre_finite_inputs.S2x800000 32) (h : Nonneg x2) :
    val_main_v59 (F := F) x2 = val_main_v1 (F := F) x2 := by
  funext i
  rw [val_main_v59_apply, val_main_v56_apply, val_main_v55_apply, val_main_c_8_apply]
  exact select_slt_zero (row_nonneg x2 h i)

/-- The same for the second scatter-add: its normalised row is the row. -/
theorem v68_eq (x2 : IVec Cert.Pre_finite_inputs.S2x800000 32) (h : Nonneg x2) :
    val_main_v68 (F := F) x2 = val_main_v1 (F := F) x2 := by
  funext i
  rw [val_main_v68_apply, val_main_v65_apply, val_main_v64_apply, val_main_c_11_apply]
  exact select_slt_zero (row_nonneg x2 h i)

end Reference

end Cert.Proof.RowNonneg

end
-- ==== Proof.RefStages.lean ====
/-
  The reference program's stages, read index by index, are the layer's functions.

  Every stage of the reference is an array given as a function of the program's arguments; read at one index it is an
  arithmetic expression in the stages before it. Reading the chain of stages behind a result at one edge (or one
  node) gives the closed forms of the layer: a bias row broadcast over the edges reads the bias entry; the expanded
  z · (1 / (1 + e^(−z))) is silu z; a contraction is the sum over its one contracted axis; a concatenation along the
  feature axis reads the piece that holds the coordinate, so a contraction over the concatenated axis splits into one
  sum per piece. The two gathers of the features and of the coordinates, and the scatter-add that aggregates the
  messages, are kept as they are: the statements below are relative to them.
-/
import proofs.«124007_j7275674599753_1_alg».proof.Proof.Gen.ReferenceIdeal.Read
import proofs.«124007_j7275674599753_1_alg».proof.Proof.Layer
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Stages

open Cert.ReferenceIdeal Cert.ReferenceIdeal.Gen Cert.ReferenceIdeal.Read
open Idealize.ShloMosaic Idealize.ShloMosaic.ValueIdx
open scoped BigOperators

variable (x0 : (⟨S50000x128, .f32⟩ : BufTy).Contents (Elt Ideal)) (x1 : (⟨S50000x3, .f32⟩ : BufTy).Contents (Elt Ideal))
  (x2 : (⟨S2x800000, .i32⟩ : BufTy).Contents (Elt Ideal)) (x3 : (⟨S257x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x128, .f32⟩ : BufTy).Contents (Elt Ideal))
  (x8 : (⟨S128, .f32⟩ : BufTy).Contents (Elt Ideal)) (x9 : (⟨S128x1, .f32⟩ : BufTy).Contents (Elt Ideal))
  (x10 : (⟨S256x128, .f32⟩ : BufTy).Contents (Elt Ideal)) (x11 : (⟨S128, .f32⟩ : BufTy).Contents (Elt Ideal))
  (x12 : (⟨S128x128, .f32⟩ : BufTy).Contents (Elt Ideal)) (x13 : (⟨S128, .f32⟩ : BufTy).Contents (Elt Ideal))

/-! ## silu, written out -/

/-- z · (1 / (1 + e^(−z))), with the two ones given by their single-precision word, is silu z. -/
theorem silu_word (z : Ideal .f32) :
    FloatOps.mulf (F := Ideal) (φ := .f32) z (FloatOps.hostDivf (FloatOps.ofBits .f32 0x3F800000#32)
      (FloatOps.addf (FloatOps.ofBits .f32 0x3F800000#32) (FloatOps.hostUnary .exp (FloatOps.hostNegf z))))
      = Cert.Layer.silu z := by
  show z * Ideal.div (Ideal.ofBits .f32 0x3F800000#32) (Ideal.ofBits .f32 0x3F800000#32 + Ideal.exp (-z)) = _
  rw [Cert.Layer.one_f32]
  rfl

/-! ## Bias rows: a bias vector broadcast over the rows reads its entry -/

theorem bias_v39 (e : Fin 800000) (k : Fin 128) : val_main_v39 (F := Ideal) x4 (ix2 e k) = x4 (ix1 k) := by
  rw [val_main_v39_apply, val_main_v38_apply]
  exact congrArg x4 ((eq_ix1 _).trans rfl)

theorem bias_v44 (e : Fin 800000) (j : Fin 128) : val_main_v44 (F := Ideal) x6 (ix2 e j) = x6 (ix1 j) := by
  rw [val_main_v44_apply, val_main_v43_apply]
  exact congrArg x6 ((eq_ix1 _).trans rfl)

theorem bias_v48 (e : Fin 800000) (k : Fin 128) : val_main_v48 (F := Ideal) x8 (ix2 e k) = x8 (ix1 k) := by
  rw [val_main_v48_apply, val_main_v47_apply]
  exact congrArg x8 ((eq_ix1 _).trans rfl)

theorem bias_v74 (n : Fin 50000) (k : Fin 128) : val_main_v74 (F := Ideal) x11 (ix2 n k) = x11 (ix1 k) := by
  rw [val_main_v74_apply, val_main_v73_apply]
  exact congrArg x11 ((eq_ix1 _).trans rfl)

theorem bias_v79 (n : Fin 50000) (j : Fin 128) : val_main_v79 (F := Ideal) x13 (ix2 n j) = x13 (ix1 j) := by
  rw [val_main_v79_apply, val_main_v78_apply]
  exact congrArg x13 ((eq_ix1 _).trans rfl)

/-! ## The three silu calls -/

theorem silu_v41 (i : S800000x128.Idx) :
    val_main_v41 (F := Ideal) x0 x1 x2 x3 x4 i = Cert.Layer.silu (val_main_v40 (F := Ideal) x0 x1 x2 x3 x4 i) := by
  rw [val_main_v41_apply, val_main_call0_v5_apply, val_main_call0_v4_apply, val_main_call0_cst_0_apply,
    val_main_call0_v3_apply, val_main_call0_v2_apply, val_main_call0_cst_apply, val_main_call0_v1_apply,
    val_main_call0_v0_apply]
  exact silu_word _

theorem silu_v50 (i : S800000x128.Idx) :
    val_main_v50 (F := Ideal) x0 x1 x2 x3 x4 x5 x6 x7 x8 i
      = Cert.Layer.silu (val_main_v49 (F := Ideal) x0 x1 x2 x3 x4 x5 x6 x7 x8 i) := by
  rw [val_main_v50_apply, val_main_call1_v5_apply, val_main_call1_v4_apply, val_main_call1_cst_0_apply,
    val_main_call1_v3_apply, val_main_call1_v2_apply, val_main_call1_cst_apply, val_main_call1_v1_apply,
    val_main_call1_v0_apply]
  exact silu_word _

theorem silu_v76 (i : S50000x128.Idx) :
    val_main_v76 (F := Ideal) x0 x1 x2 x3 x4 x5 x6 x10 x11 i
      = Cert.Layer.silu (val_main_v75 (F := Ideal) x0 x1 x2 x3 x4 x5 x6 x10 x11 i) := by
  rw [val_main_v76_apply, val_main_call2_v5_apply, val_main_call2_v4_apply, val_main_call2_cst_0_apply,
    val_main_call2_v3_apply, val_main_call2_v2_apply, val_main_call2_cst_apply, val_main_call2_v1_apply,
    val_main_call2_v0_apply]
  exact silu_word _

/-! ## The contractions, read at an index given by its coordinates -/

theorem dot_v37 (e : Fin 800000) (k : Fin 128) :
    val_main_v37 (F := Ideal) x0 x1 x2 x3 (ix2 e k)
      = ∑ l : Fin 257, val_main_v36 (F := Ideal) x0 x1 x2 (ix2 e l) * x3 (ix2 l k) := by
  rw [val_main_v37_apply]
  refine Finset.sum_congr rfl fun l _ => ?_
  rw [show lidx_main_v37 (ix2 e k) l = ix2 e l from (eq_ix2 _).trans rfl,
    show ridx_main_v37 (ix2 e k) l = ix2 l k from (eq_ix2 _).trans rfl]

theorem dot_v42 (e : Fin 800000) (j : Fin 128) :
    val_main_v42 (F := Ideal) x0 x1 x2 x3 x4 x5 (ix2 e j)
      = ∑ k : Fin 128, val_main_v41 (F := Ideal) x0 x1 x2 x3 x4 (ix2 e k) * x5 (ix2 k j) := by
  rw [val_main_v42_apply]
  refine Finset.sum_congr rfl fun k _ => ?_
  rw [show lidx_main_v42 (ix2 e j) k = ix2 e k from (eq_ix2 _).trans rfl,
    show ridx_main_v42 (ix2 e j) k = ix2 k j from (eq_ix2 _).trans rfl]

theorem dot_v46 (e : Fin 800000) (k : Fin 128) :
    val_main_v46 (F := Ideal) x0 x1 x2 x3 x4 x5 x6 x7 (ix2 e k)
      = ∑ j : Fin 128, val_main_v45 (F := Ideal) x0 x1 x2 x3 x4 x5 x6 (ix2 e j) * x7 (ix2 j k) := by
  rw [val_main_v46_apply]
  refine Finset.sum_congr rfl fun j _ => ?_
  rw [show lidx_main_v46 (ix2 e k) j = ix2 e j from (eq_ix2 _).trans rfl,
    show ridx_main_v46 (ix2 e k) j = ix2 j k from (eq_ix2 _).trans rfl]

theorem dot_v51 (e : Fin 800000) :
    val_main_v51 (F := Ideal) x0 x1 x2 x3 x4 x5 x6 x7 x8 x9 (ix2 e (0 : Fin 1))
      = ∑ k : Fin 128, val_main_v50 (F := Ideal) x0 x1 x2 x3 x4 x5 x6 x7 x8 (ix2 e k) * x9 (ix2 k (0 : Fin 1)) := by
  rw [val_main_v51_apply]
  refine Finset.sum_congr rfl fun k _ => ?_
  rw [show lidx_main_v51 (ix2 e (0 : Fin 1)) k = ix2 e k from (eq_ix2 _).trans rfl,
    show ridx_main_v51 (ix2 e (0 : Fin 1)) k = ix2 k (0 : Fin 1) from (eq_ix2 _).trans rfl]

theorem dot_v72 (n : Fin 50000) (k : Fin 128) :
    val_main_v72 (F := Ideal) x0 x1 x2 x3 x4 x5 x6 x10 (ix2 n k)
      = ∑ l : Fin 256, val_main_v71 (F := Ideal) x0 x1 x2 x3 x4 x5 x6 (ix2 n l) * x10 (ix2 l k) := by
  rw [val_main_v72_apply]
  refine Finset.sum_congr rfl fun l _ => ?_
  rw [show lidx_main_v72 (ix2 n k) l = ix2 n l from (eq_ix2 _).trans rfl,
    show ridx_main_v72 (ix2 n k) l = ix2 l k from (eq_ix2 _).trans rfl]

theorem dot_v77 (n : Fin 50000) (j : Fin 128) :
    val_main_v77 (F := Ideal) x0 x1 x2 x3 x4 x5 x6 x10 x11 x12 (ix2 n j)
      = ∑ k : Fin 128, val_main_v76 (F := Ideal) x0 x1 x2 x3 x4 x5 x6 x10 x11 (ix2 n k) * x12 (ix2 k j) := by
  rw [val_main_v77_apply]
  refine Finset.sum_congr rfl fun k _ => ?_
  rw [show lidx_main_v77 (ix2 n j) k = ix2 n k from (eq_ix2 _).trans rfl,
    show ridx_main_v77 (ix2 n j) k = ix2 k j from (eq_ix2 _).trans rfl]

/-! ## The concatenations along the feature axis, piece by piece -/

/-- Columns 0 … 127 of the edge network's input are the gathered source features. -/
theorem v36_left (e : Fin 800000) (l : Fin 128) :
    val_main_v36 (F := Ideal) x0 x1 x2 (ix2 e (⟨l.val, by omega⟩ : Fin 257)) = val_main_v28 (F := Ideal) x0 x2 (ix2 e l) := by
  unfold val_main_v36
  generalize val_main_v28 (F := Ideal) x0 x2 = A
  generalize val_main_v35 (F := Ideal) x0 x2 = B
  generalize val_main_v21 (F := Ideal) x1 x2 = C
  refine concatenate_apply_piece (t := S800000x257) 1 _ _ _ 0 ?_ S800000x128 A ?_ ?_ 0 ?_ (ix2 e l) ?_ ?_
  · exact Nat.zero_lt_succ _
  · rfl
  · rfl
  · rfl
  · intro b hb
    match b with
    | ⟨0, _⟩ => rfl
    | ⟨1, _⟩ => exact absurd rfl hb
  · exact Nat.zero_add _

/-- Columns 128 … 255 are the gathered target features. -/
theorem v36_mid (e : Fin 800000) (l : Fin 128) :
    val_main_v36 (F := Ideal) x0 x1 x2 (ix2 e (⟨128 + l.val, by omega⟩ : Fin 257)) = val_main_v35 (F := Ideal) x0 x2 (ix2 e l) := by
  unfold val_main_v36
  generalize val_main_v28 (F := Ideal) x0 x2 = A
  generalize val_main_v35 (F := Ideal) x0 x2 = B
  generalize val_main_v21 (F := Ideal) x1 x2 = C
  refine concatenate_apply_piece (t := S800000x257) 1 _ _ _ 1 ?_ S800000x128 B ?_ ?_ 128 ?_ (ix2 e l) ?_ ?_
  · exact Nat.succ_lt_succ (Nat.zero_lt_succ _)
  · rfl
  · rfl
  · rfl
  · intro b hb
    match b with
    | ⟨0, _⟩ => rfl
    | ⟨1, _⟩ => exact absurd rfl hb
  · rfl

/-- Column 256 is the squared distance. -/
theorem v36_right (e : Fin 800000) :
    val_main_v36 (F := Ideal) x0 x1 x2 (ix2 e (⟨256, by omega⟩ : Fin 257)) = val_main_v21 (F := Ideal) x1 x2 (ix2 e (0 : Fin 1)) := by
  unfold val_main_v36
  generalize val_main_v28 (F := Ideal) x0 x2 = A
  generalize val_main_v35 (F := Ideal) x0 x2 = B
  generalize val_main_v21 (F := Ideal) x1 x2 = C
  refine concatenate_apply_piece (t := S800000x257) 1 _ _ _ 2 ?_ S800000x1 C ?_ ?_ 256 ?_ (ix2 e (0 : Fin 1)) ?_ ?_
  · exact Nat.succ_lt_succ (Nat.succ_lt_succ (Nat.zero_lt_succ _))
  · rfl
  · rfl
  · rfl
  · intro b hb
    match b with
    | ⟨0, _⟩ => rfl
    | ⟨1, _⟩ => exact absurd rfl hb
  · rfl

/-- Columns 0 … 127 of the node network's input are the node's features. -/
theorem v71_left (n : Fin 50000) (l : Fin 128) :
    val_main_v71 (F := Ideal) x0 x1 x2 x3 x4 x5 x6 (ix2 n (⟨l.val, by omega⟩ : Fin 256)) = x0 (ix2 n l) := by
  unfold val_main_v71
  generalize val_main_v70 (F := Ideal) x0 x1 x2 x3 x4 x5 x6 = B
  refine concatenate_pair_apply_left (t := S50000x256) (s₁ := S50000x128) (s₂ := S50000x128) 1 x0 B _ _ ?_ (ix2 n l) ?_
  · rfl
  · intro b
    match b with
    | ⟨0, _⟩ => rfl
    | ⟨1, _⟩ => rfl

/-- Columns 128 … 255 are the aggregated messages. -/
theorem v71_right (n : Fin 50000) (l : Fin 128) :
    val_main_v71 (F := Ideal) x0 x1 x2 x3 x4 x5 x6 (ix2 n (⟨128 + l.val, by omega⟩ : Fin 256))
      = val_main_v70 (F := Ideal) x0 x1 x2 x3 x4 x5 x6 (ix2 n l) := by
  unfold val_main_v71
  generalize val_main_v70 (F := Ideal) x0 x1 x2 x3 x4 x5 x6 = B
  refine concatenate_pair_apply_right (t := S50000x256) (s₁ := S50000x128) (s₂ := S50000x128) 1 x0 B _ _ ?_ ?_ (ix2 n l) ?_ ?_
  · rfl
  · rfl
  · intro b hb
    match b with
    | ⟨0, _⟩ => rfl
    | ⟨1, _⟩ => exact absurd rfl hb
  · exact Nat.add_comm _ _

/-! ## The edge network -/

/-- The radial column: zero plus the sum over the three coordinates of the squared difference. -/
theorem radial_v21 (e : Fin 800000) :
    val_main_v21 (F := Ideal) x1 x2 (ix2 e (0 : Fin 1))
      = Cert.Layer.radial (fun d => val_main_v10 (F := Ideal) x1 x2 (ix2 e d)) (fun d => val_main_v17 (F := Ideal) x1 x2 (ix2 e d)) := by
  rw [val_main_v21_apply, val_main_v20_apply, val_main_cst_apply]
  show Ideal.ofBits .f32 0x00000000#32 + _ = _
  rw [Ideal.ofBits_zero_f32, zero_add]
  unfold Cert.Layer.radial
  refine Finset.sum_congr rfl fun d _ => ?_
  rw [show idx_main_v20 (idx_main_v21 (ix2 e (0 : Fin 1))) d = ix2 e d from (eq_ix2 _).trans rfl,
    val_main_v19_apply, val_main_v18_apply]
  rfl

/-- The hidden layer of the edge network at edge e, unit k. -/
theorem hidden_v41 (e : Fin 800000) (k : Fin 128) :
    val_main_v41 (F := Ideal) x0 x1 x2 x3 x4 (ix2 e k)
      = Cert.Layer.hidden (fun l => val_main_v28 (F := Ideal) x0 x2 (ix2 e l)) (fun l => val_main_v35 (F := Ideal) x0 x2 (ix2 e l))
          (fun d => val_main_v10 (F := Ideal) x1 x2 (ix2 e d)) (fun d => val_main_v17 (F := Ideal) x1 x2 (ix2 e d))
          (fun l k => x3 (ix2 (⟨l.val, by omega⟩ : Fin 257) k)) (fun l k => x3 (ix2 (⟨128 + l.val, by omega⟩ : Fin 257) k))
          (fun k => x3 (ix2 (⟨256, by omega⟩ : Fin 257) k)) (fun k => x4 (ix1 k)) k := by
  rw [silu_v41, val_main_v40_apply, bias_v39, dot_v37, Cert.Layer.sum_257, v36_right, radial_v21]
  simp only [v36_left, v36_mid]
  rfl

/-- The message of edge e, feature j. -/
theorem ref_msg (e : Fin 800000) (j : Fin 128) :
    val_main_v45 (F := Ideal) x0 x1 x2 x3 x4 x5 x6 (ix2 e j)
      = Cert.Layer.msg (fun l => val_main_v28 (F := Ideal) x0 x2 (ix2 e l)) (fun l => val_main_v35 (F := Ideal) x0 x2 (ix2 e l))
          (fun d => val_main_v10 (F := Ideal) x1 x2 (ix2 e d)) (fun d => val_main_v17 (F := Ideal) x1 x2 (ix2 e d))
          (fun l k => x3 (ix2 (⟨l.val, by omega⟩ : Fin 257) k)) (fun l k => x3 (ix2 (⟨128 + l.val, by omega⟩ : Fin 257) k))
          (fun k => x3 (ix2 (⟨256, by omega⟩ : Fin 257) k)) (fun k => x4 (ix1 k)) (fun k j => x5 (ix2 k j)) (fun j => x6 (ix1 j)) j := by
  rw [val_main_v45_apply, dot_v42, bias_v44]
  simp only [hidden_v41]
  rfl

/-- The coordinate shift of edge e, coordinate d. -/
theorem ref_shift (e : Fin 800000) (d : Fin 3) :
    val_main_v53 (F := Ideal) x0 x1 x2 x3 x4 x5 x6 x7 x8 x9 (ix2 e d)
      = Cert.Layer.shiftOf (fun d => val_main_v10 (F := Ideal) x1 x2 (ix2 e d)) (fun d => val_main_v17 (F := Ideal) x1 x2 (ix2 e d))
          (fun j k => x7 (ix2 j k)) (fun k => x8 (ix1 k)) (fun k => x9 (ix2 k (0 : Fin 1)))
          (fun j => val_main_v45 (F := Ideal) x0 x1 x2 x3 x4 x5 x6 (ix2 e j)) d := by
  rw [val_main_v53_apply, val_main_v52_apply, val_main_v18_apply,
    show idx_main_v52 (ix2 e d) = ix2 e (0 : Fin 1) from (eq_ix2 _).trans rfl, dot_v51]
  simp only [silu_v50, val_main_v49_apply, bias_v48, dot_v46]
  rfl

/-! ## The node network -/

/-- The updated features of node n, feature j. -/
theorem ref_node (n : Fin 50000) (j : Fin 128) :
    val_main_v81 (F := Ideal) x0 x1 x2 x3 x4 x5 x6 x10 x11 x12 x13 (ix2 n j)
      = Cert.Layer.nodeOut (fun l => x0 (ix2 n l)) (fun l => val_main_v70 (F := Ideal) x0 x1 x2 x3 x4 x5 x6 (ix2 n l))
          (fun l k => x10 (ix2 (⟨l.val, by omega⟩ : Fin 256) k)) (fun l k => x10 (ix2 (⟨128 + l.val, by omega⟩ : Fin 256) k))
          (fun k => x11 (ix1 k)) (fun k j => x12 (ix2 k j)) (fun j => x13 (ix1 j)) j := by
  rw [val_main_v81_apply, val_main_v80_apply, dot_v77, bias_v79]
  simp only [silu_v76, val_main_v75_apply, bias_v74, dot_v72, Cert.Layer.sum_256, v71_left, v71_right]
  rfl

/-- The updated coordinates: the coordinates plus the scatter-added shifts. -/
theorem ref_xout (i : S50000x3.Idx) :
    val_main_v62 (F := Ideal) x0 x1 x2 x3 x4 x5 x6 x7 x8 x9 i
      = x1 i + val_main_v61 (F := Ideal) x0 x1 x2 x3 x4 x5 x6 x7 x8 x9 i :=
  val_main_v62_apply x0 x1 x2 x3 x4 x5 x6 x7 x8 x9 i

end Cert.ReferenceIdeal.Stages

end
-- ==== Proof.RefComposite.lean ====
/-
  The reference's two results, as whole arrays, are the layer's composite arrays.

  Index by index the reference's message, shift and node stages are the layer's functions of the gathered rows; so as
  arrays they are the layer's arrays. When no entry of the edge list is negative, the row the reference normalises
  before each scatter-add is the raw row, so the two aggregated arrays are the scatter-additions by the raw row, and
  the two results are the node update of the features and the coordinates plus the aggregated shifts.
-/
import proofs.«124007_j7275674599753_1_alg».proof.Proof.RefStages
import proofs.«124007_j7275674599753_1_alg».proof.Proof.RowNonneg
import proofs.«124007_j7275674599753_1_alg».proof.Proof.Composite

noncomputable section

namespace Cert.ReferenceIdeal.Whole

open Cert.ReferenceIdeal Cert.ReferenceIdeal.Gen Cert.ReferenceIdeal.Read
open Idealize.ShloMosaic Idealize.ShloMosaic.ValueIdx Idealize.ShloMosaic.TcCoe Idealize.SL.Sem
open Cert.Proof.RowNonneg (Nonneg)

variable (x0 : (⟨S50000x128, .f32⟩ : BufTy).Contents (Elt Ideal)) (x1 : (⟨S50000x3, .f32⟩ : BufTy).Contents (Elt Ideal))
  (x2 : (⟨S2x800000, .i32⟩ : BufTy).Contents (Elt Ideal)) (x3 : (⟨S257x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x128, .f32⟩ : BufTy).Contents (Elt Ideal))
  (x8 : (⟨S128, .f32⟩ : BufTy).Contents (Elt Ideal)) (x9 : (⟨S128x1, .f32⟩ : BufTy).Contents (Elt Ideal))
  (x10 : (⟨S256x128, .f32⟩ : BufTy).Contents (Elt Ideal)) (x11 : (⟨S128, .f32⟩ : BufTy).Contents (Elt Ideal))
  (x12 : (⟨S128x128, .f32⟩ : BufTy).Contents (Elt Ideal)) (x13 : (⟨S128, .f32⟩ : BufTy).Contents (Elt Ideal))

/-- The message stage is the layer's message array of the gathered rows. -/
theorem ref_msgA : val_main_v45 (F := Ideal) x0 x1 x2 x3 x4 x5 x6 = Composite.msgA x0 x1 x2 x3 x4 x5 x6 := by
  funext i
  obtain ⟨e, j, rfl⟩ : ∃ (e : Fin 800000) (j : Fin 128), i = ix2 e j := ⟨i 0, i 1, eq_ix2 i⟩
  rw [Stages.ref_msg]
  unfold Composite.msgA
  rw [Cert.Layer.msgArr_apply]

/-- The shift stage is the layer's shift array of the gathered coordinates and the message array. -/
theorem ref_shiftA :
    val_main_v53 (F := Ideal) x0 x1 x2 x3 x4 x5 x6 x7 x8 x9 = Composite.shiftA x0 x1 x2 x3 x4 x5 x6 x7 x8 x9 := by
  funext i
  obtain ⟨e, d, rfl⟩ : ∃ (e : Fin 800000) (d : Fin 3), i = ix2 e d := ⟨i 0, i 1, eq_ix2 i⟩
  rw [Stages.ref_shift, ref_msgA]
  unfold Composite.shiftA
  rw [Cert.Layer.shiftArr_apply]

/-- With no negative entry the messages are scatter-added by the raw row. -/
theorem ref_aggH (h : Nonneg x2) :
    val_main_v70 (F := Ideal) x0 x1 x2 x3 x4 x5 x6 = Composite.aggH x0 x1 x2 x3 x4 x5 x6 := by
  unfold val_main_v70 val_main_v69 Composite.aggH
  rw [Cert.Proof.RowNonneg.v68_eq (F := Ideal) x2 h, ref_msgA]

/-- With no negative entry the shifts are scatter-added by the raw row. -/
theorem ref_aggX (h : Nonneg x2) :
    val_main_v61 (F := Ideal) x0 x1 x2 x3 x4 x5 x6 x7 x8 x9 = Composite.aggX x0 x1 x2 x3 x4 x5 x6 x7 x8 x9 := by
  unfold val_main_v61 val_main_v60 Composite.aggX
  rw [Cert.Proof.RowNonneg.v59_eq (F := Ideal) x2 h, ref_shiftA]

/-- The first result: the node update of the features and the aggregated messages. -/
theorem ref_outH (h : Nonneg x2) :
    val_main_v81 (F := Ideal) x0 x1 x2 x3 x4 x5 x6 x10 x11 x12 x13
      = Composite.outH x0 x1 x2 x3 x4 x5 x6 x10 x11 x12 x13 := by
  funext i
  obtain ⟨n, j, rfl⟩ : ∃ (n : Fin 50000) (j : Fin 128), i = ix2 n j := ⟨i 0, i 1, eq_ix2 i⟩
  rw [Stages.ref_node, ref_aggH x0 x1 x2 x3 x4 x5 x6 h]
  unfold Composite.outH
  rw [Cert.Layer.nodeArr_apply]

/-- The second result: the coordinates plus the aggregated shifts. -/
theorem ref_outX (h : Nonneg x2) :
    val_main_v62 (F := Ideal) x0 x1 x2 x3 x4 x5 x6 x7 x8 x9 = Composite.outX x0 x1 x2 x3 x4 x5 x6 x7 x8 x9 := by
  funext i
  rw [Stages.ref_xout, ref_aggX x0 x1 x2 x3 x4 x5 x6 x7 x8 x9 h]
  unfold Composite.outX Cert.Layer.xArr
  rfl

/-- The run's first result term, for a launch memory whose edge list has no negative entry. -/
theorem res0_eq (m' : (ℓ : Loc nD τ sig) → Buf (Elt Ideal) ℓ) (c : Dev nD)
    (h : Nonneg (m' ((c.tc : Thread nD τ).loc main_arg2))) :
    Cert.ReferenceIdeal.Value.res_main_v81 m' c
      = Composite.outH (m' ((c.tc : Thread nD τ).loc main_arg0)) (m' ((c.tc : Thread nD τ).loc main_arg1))
          (m' ((c.tc : Thread nD τ).loc main_arg2)) (m' ((c.tc : Thread nD τ).loc main_arg3))
          (m' ((c.tc : Thread nD τ).loc main_arg4)) (m' ((c.tc : Thread nD τ).loc main_arg5))
          (m' ((c.tc : Thread nD τ).loc main_arg6)) (m' ((c.tc : Thread nD τ).loc main_arg10))
          (m' ((c.tc : Thread nD τ).loc main_arg11)) (m' ((c.tc : Thread nD τ).loc main_arg12))
          (m' ((c.tc : Thread nD τ).loc main_arg13)) :=
  (val_main_v81_eq m' c).trans (ref_outH _ _ _ _ _ _ _ _ _ _ _ h)

/-- The run's second result term, for a launch memory whose edge list has no negative entry. -/
theorem res1_eq (m' : (ℓ : Loc nD τ sig) → Buf (Elt Ideal) ℓ) (c : Dev nD)
    (h : Nonneg (m' ((c.tc : Thread nD τ).loc main_arg2))) :
    Cert.ReferenceIdeal.Value.res_main_v62 m' c
      = Composite.outX (m' ((c.tc : Thread nD τ).loc main_arg0)) (m' ((c.tc : Thread nD τ).loc main_arg1))
          (m' ((c.tc : Thread nD τ).loc main_arg2)) (m' ((c.tc : Thread nD τ).loc main_arg3))
          (m' ((c.tc : Thread nD τ).loc main_arg4)) (m' ((c.tc : Thread nD τ).loc main_arg5))
          (m' ((c.tc : Thread nD τ).loc main_arg6)) (m' ((c.tc : Thread nD τ).loc main_arg7))
          (m' ((c.tc : Thread nD τ).loc main_arg8)) (m' ((c.tc : Thread nD τ).loc main_arg9)) :=
  (val_main_v62_eq m' c).trans (ref_outX _ _ _ _ _ _ _ _ _ _ h)

end Cert.ReferenceIdeal.Whole

end
-- ==== Proof.lean ====
/-
  One layer of an equivariant graph network: per edge, a two-layer message network on the two endpoint feature rows and
  their squared distance, and a coefficient network on the message that scales the coordinate difference; per node, the
  messages and shifts of the edges whose first endpoint it is are added up, the features go through a residual two-layer
  network on (features, aggregated messages), and the coordinates move by the aggregated shifts.

  The kernel program computes the per-edge part in one gridded kernel over blocks of 2000 edges and the per-node part in
  another over blocks of 2000 nodes, splitting each first-layer product over a concatenation into products with row
  ranges of the weight matrix; the reference computes everything on whole arrays with the concatenations. Over the
  extended reals the two agree entry by entry: a sum over 257 (256) terms is regrouped as 128 + 128 + 1 (128 + 128)
  terms, which needs only commutativity and associativity of addition; silu is the same function on both sides; the
  two programs share the gathers and the scatter-additions, whose index arrays coincide because the reference's
  wrap-around of negative indices is the identity on a non-negative edge list (the precondition's last conjunct).
  The frames of the two kernel programs are the generated frame certificates; the reference's frame is its generated run.
-/
import proofs.«124007_j7275674599753_1_alg».proof.Defs
import proofs.«124007_j7275674599753_1_alg».proof.Proof.Gen.Kernel
import proofs.«124007_j7275674599753_1_alg».proof.Proof.Gen.Kernel.Skeleton
import proofs.«124007_j7275674599753_1_alg».proof.Proof.Gen.Kernel.Launch
import proofs.«124007_j7275674599753_1_alg».proof.Proof.Gen.Kernel.Points
import proofs.«124007_j7275674599753_1_alg».proof.Proof.Gen.Kernel.Frame
import proofs.«124007_j7275674599753_1_alg».proof.Proof.Gen.KernelIdeal
import proofs.«124007_j7275674599753_1_alg».proof.Proof.Gen.KernelIdeal.Skeleton
import proofs.«124007_j7275674599753_1_alg».proof.Proof.Gen.KernelIdeal.Launch
import proofs.«124007_j7275674599753_1_alg».proof.Proof.Gen.KernelIdeal.Points
import proofs.«124007_j7275674599753_1_alg».proof.Proof.Gen.KernelIdeal.Frame
import proofs.«124007_j7275674599753_1_alg».proof.Proof.Gen.ReferenceIdeal
import proofs.«124007_j7275674599753_1_alg».proof.Proof.Gen.ReferenceIdeal.Run
import proofs.«124007_j7275674599753_1_alg».proof.Proof.Gen.ReferenceIdeal.Read
import proofs.«124007_j7275674599753_1_alg».proof.Proof.Gen.Pre_finite_inputs
import proofs.«124007_j7275674599753_1_alg».proof.Proof.KernelRun
import proofs.«124007_j7275674599753_1_alg».proof.Proof.KernelWhole
import proofs.«124007_j7275674599753_1_alg».proof.Proof.RowNonneg
import proofs.«124007_j7275674599753_1_alg».proof.Proof.RefComposite
import Idealize.ShloMosaic.Adequacy
import Idealize.ShloMosaic.Init

noncomputable section

namespace Cert.Proof

open Idealize.ShloMosaic Idealize.SL.Sem

/-- The word-level kernel program's frame: the generated frame certificate. -/
theorem frame_k : Cert.frame_Kernel := fun m ρ _ => Cert.Kernel.Gen.frame m ρ

/-- The idealized kernel program's frame: the generated frame certificate. -/
theorem frame_ki : Cert.frame_KernelIdeal := fun m ρ _ => Cert.KernelIdeal.Gen.frame m ρ

/-- The reference's frame: its generated run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the layer's updated features and coordinates of the arguments: the kernel program by its
    run through the two regions, the reference by its stages, under a non-negative edge list. -/
theorem algebraic : Cert.algebraic_KernelIdeal_ReferenceIdeal := by
  intro m ρ m' ρ' hpre hagree
  refine ⟨fun c => Cert.ReferenceIdeal.Composite.outH (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.ReferenceIdeal.Composite.outX (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.Fold.run_fold (F := Ideal) m ρ)
    obtain ⟨h0, h1, hargs⟩ := h c
    exact ⟨h0.trans (Cert.KernelIdeal.Whole.out0_eq m ρ c), h1.trans (Cert.KernelIdeal.Whole.out1_eq m ρ c), hargs⟩
  · refine (θ_run Cert.ReferenceIdeal.defs _ _).mono (fun r h c => ?_) (Cert.ReferenceIdeal.Value.run (F := Ideal) m' ρ')
    obtain ⟨h0, h1, hargs⟩ := h c
    obtain ⟨g0, g1, g2, g3, g4, g5, g6, g7, g8, g9, g10, g11, g12, g13⟩ := hagree c
    have hn : Cert.Proof.RowNonneg.Nonneg (m' ((c.tc : Thread Cert.ReferenceIdeal.nD Cert.ReferenceIdeal.τ).loc Cert.ReferenceIdeal.main_arg2)) := by
      rw [g2]; exact Cert.Proof.RowNonneg.nonneg_of_pre m hpre c
    refine ⟨h0.trans ?_, h1.trans ?_, hargs⟩
    · rw [Cert.ReferenceIdeal.Whole.res0_eq m' c hn, g0, g1, g2, g3, g4, g5, g6, g10, g11, g12, g13]
    · rw [Cert.ReferenceIdeal.Whole.res1_eq m' c hn, g0, g1, g2, g3, g4, g5, g6, g7, g8, g9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
